-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "keep_scale" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x600000 : Shape := ⟨2, ![2, 600000]⟩
abbrev S100000x128 : Shape := ⟨2, ![100000, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128x10 .f32) (main_arg6 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg5
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x512 .f32) (main_arg1 : IVec S2x600000 32) (main_arg2 : FVec F S100000x128 .f32) (main_arg3 : FVec F S512x128 .f32) (main_arg4 : FVec F S128 .f32) (main_arg5 : FVec F S128x10 .f32) (main_arg6 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x512 : Shape := ⟨2, ![100000, 512]⟩
abbrev S2x600000 : Shape := ⟨2, ![2, 600000]⟩
abbrev S100000x128 : Shape := ⟨2, ![100000, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S4000x512 : Shape := ⟨2, ![4000, 512]⟩
abbrev S4000x128 : Shape := ⟨2, ![4000, 128]⟩
abbrev S700000x128 : Shape := ⟨2, ![700000, 128]⟩
abbrev S1x128 : Shape := ⟨2, ![1, 128]⟩
abbrev S100000x10 : Shape := ⟨2, ![100000, 10]⟩
abbrev S4000x10 : Shape := ⟨2, ![4000, 10]⟩
abbrev S700000x10 : Shape := ⟨2, ![700000, 10]⟩
abbrev S1x10 : Shape := ⟨2, ![1, 10]⟩
abbrev S4000 : Shape := ⟨1, ![4000]⟩
abbrev S4000x1 : Shape := ⟨2, ![4000, 1]⟩

abbrev nBuf : Space → Nat
  | .hbm => 85
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x600000, .i32⟩
  | .hbm, ⟨2, _⟩ => ⟨S100000x128, .f32⟩
  | .hbm, ⟨3, _⟩ => ⟨S512x128, .f32⟩
  | .hbm, ⟨4, _⟩ => ⟨S128, .f32⟩
  | .hbm, ⟨5, _⟩ => ⟨S128x10, .f32⟩
  | .hbm, ⟨6, _⟩ => ⟨S10, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S100000, .i32⟩
  | .hbm, ⟨12, _⟩ => ⟨S700000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S100000x128, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x1, .f32⟩
  | .hbm, ⟨58, _⟩ => ⟨S700000x128, .f32⟩
  | .hbm, ⟨59, _⟩ => ⟨S700000x128, .f32⟩
  | .hbm, ⟨60, _⟩ => ⟨S_, .f32⟩
  | .hbm, ⟨61, _⟩ => ⟨S100000x128, .f32⟩
  | .hbm, ⟨62, _⟩ => ⟨S700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x10, .f32⟩
  | .hbm, ⟨67, _⟩ => ⟨S_, .i32⟩
  | .hbm, ⟨68, _⟩ => ⟨S700000, .i32⟩
  | .hbm, ⟨69, _⟩ => ⟨S700000, .i1⟩
  | .hbm, ⟨70, _⟩ => ⟨S_, .i32⟩
  | .hbm, ⟨71, _⟩ => ⟨S700000, .i32⟩
  | .hbm, ⟨72, _⟩ => ⟨S700000, .i32⟩
  | .hbm, ⟨73, _⟩ => ⟨S700000, .i32⟩
  | .hbm, ⟨74, _⟩ => ⟨S700000x1, .i32⟩
  | .hbm, ⟨75, _⟩ => ⟨S700000x10, .f32⟩
  | .hbm, ⟨76, _⟩ => ⟨S700000x1, .f32⟩
  | .hbm, ⟨77, _⟩ => ⟨S700000x10, .f32⟩
  | .hbm, ⟨78, _⟩ => ⟨S700000x10, .f32⟩
  | .hbm, ⟨79, _⟩ => ⟨S_, .f32⟩
  | .hbm, ⟨80, _⟩ => ⟨S100000x10, .f32⟩
  | .hbm, ⟨81, _⟩ => ⟨S700000x1, .i32⟩
  | .hbm, ⟨82, _⟩ => ⟨S100000x10, .f32⟩
  | .hbm, ⟨83, _⟩ => ⟨S1x10, .f32⟩
  | .hbm, ⟨84, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x10, .f32⟩
  | .local _ .vmem, ⟨15, _⟩ => ⟨S4000x10, .f32⟩
  | .local _ .vmem, ⟨16, _⟩ => ⟨S4000x10, .f32⟩
  | .local _ .vmem, ⟨17, _⟩ => ⟨S4000x10, .f32⟩
  | .local _ .vmem, ⟨18, _⟩ => ⟨S4000x10, .f32⟩
  | .local _ .vmem, ⟨19, _⟩ => ⟨S1x10, .f32⟩
  | .local _ .vmem, ⟨20, _⟩ => ⟨S4000x10, .f32⟩
  | .local _ .vmem, ⟨21, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  natLt_1_32 : 1 < 32
  inb_S128x10_S128x10_0_0 : ∀ a, (![0, 0] : Fin 2 → Nat) a + S128x10.size a ≤ S128x10.size a
  h_S128x10 : 0 < S128x10.numel
  inb_S4000x10_S4000x10_0_0 : ∀ a, (![0, 0] : Fin 2 → Nat) a + S4000x10.size a ≤ S4000x10.size a
  h_S4000x10 : 0 < S4000x10.numel
  bcast_S700000x1_S700000x10_0_1 : S700000x1.BroadcastsInDim S700000x10 (![0, 1] : Fin 2 → Fin S700000x10.rank)
  bcast_S_S100000x10 : S_.BroadcastsInDim S100000x10 (![] : Fin 0 → Fin S100000x10.rank)
  shapeCasts_S10_S1x10 : S10.ShapeCasts S1x10
  shapeCasts_S4000x10_S4000x10 : S4000x10.ShapeCasts S4000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  reduces_S4000x10_S4000 : S4000x10.Reduces [1] S4000
  shapeCasts_S4000_S4000x1 : S4000.ShapeCasts S4000x1
  broadcasts_S4000x1_S4000x10 : S4000x1.Broadcasts S4000x10
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S4000x512_S512x128_S4000x128_1_0_0_1_n_n_wf : DotDims.WF S4000x512 S512x128 S4000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S4000x128_S128x10_S4000x10_1_0_0_1_n_n_wf : DotDims.WF S4000x128 S128x10 S4000x10 [1] [0] [0] [1] [] []
  gather_S100000x10_S700000x1_S700000x10_1_0_n_n_0_1_110_wf : GatherDims.WF S100000x10 S700000x1 S700000x10 [1] [0] [] [0] [] 1 ![1, 10]
  scatter_S100000x10_S700000x1_S700000x10_1_0_0_1_wf : ScatterDims.WF S100000x10 S700000x1 S700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x10.size a ≤ S100000x10.size a
  hwx2_2 : ∀ i : grid2.Coords, EltTy.bits .f32 = 32 ∨ (Rect.block (s := S100000x10) S4000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x10.size a ≤ S100000x10.size a
  hwx3_0 : ∀ i : grid3.Coords, EltTy.bits .f32 = 32 ∨ (Rect.block (s := S100000x10) S4000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x10.size a ≤ S100000x10.size a
  hwx3_2 : ∀ i : grid3.Coords, EltTy.bits .f32 = 32 ∨ (Rect.block (s := S100000x10) S4000x10.size (cc3_transform_2 i) (hinb3_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S4000x128_S128x10_S4000x10_1_0_0_1_n_n : DotDims S4000x128 S128x10 S4000x10 where
  lhsContracting := [1]
  rhsContracting := [0]
  lhsNonContracting := [0]
  rhsNonContracting := [1]
  lhsBatch := []
  rhsBatch := []
  wf := dot_S4000x128_S128x10_S4000x10_1_0_0_1_n_n_wf
def gather_S100000x10_S700000x1_S700000x10_1_0_n_n_0_1_110 : GatherDims S100000x10 S700000x1 S700000x10 where
  offsetDims := [1]
  collapsedSliceDims := [0]
  operandBatchingDims := []
  startIndicesBatchingDims := []
  startIndexMap := [0]
  indexVectorDim := 1
  sliceSizes := ![1, 10]
  wf := gather_S100000x10_S700000x1_S700000x10_1_0_n_n_0_1_110_wf
def scatter_S100000x10_S700000x1_S700000x10_1_0_0_1 : ScatterDims S100000x10 S700000x1 S700000x10 where
  updateWindowDims := [1]
  insertedWindowDims := [0]
  scatterDimsToOperandDims := [0]
  indexVectorDim := 1
  wf := scatter_S100000x10_S700000x1_S700000x10_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x600000 : Shape := ⟨2, ![2, 600000]⟩
abbrev S100000x128 : Shape := ⟨2, ![100000, 128]⟩
abbrev S512x128 : Shape := ⟨2, ![512, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x10 : Shape := ⟨2, ![100000, 10]⟩
abbrev S700000x10 : Shape := ⟨2, ![700000, 10]⟩
abbrev S1x10 : Shape := ⟨2, ![1, 10]⟩
abbrev S100000x1 : Shape := ⟨2, ![100000, 1]⟩

abbrev nBuf : Space → Nat
  | .hbm => 148
  | .vmem => 0
  | .smem => 0
  | _ => 0

abbrev hbmTy0_0 (i : Nat) : BufTy := match i % 128 with
  | 0 => ⟨S100000x512, .f32⟩
  | 1 => ⟨S2x600000, .i32⟩
  | 2 => ⟨S100000x128, .f32⟩
  | 3 => ⟨S512x128, .f32⟩
  | 4 => ⟨S128, .f32⟩
  | 5 => ⟨S128x10, .f32⟩
  | 6 => ⟨S10, .f32⟩
  | 7 => ⟨S1x600000, .i32⟩
  | 8 => ⟨S600000, .i32⟩
  | 9 => ⟨S1x600000, .i32⟩
  | 10 => ⟨S600000, .i32⟩
  | 11 => ⟨S100000x128, .f32⟩
  | 12 => ⟨S100000, .i32⟩
  | 13 => ⟨S700000, .i32⟩
  | 14 => ⟨S700000, .i32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S700000, .i32⟩
  | 31 => ⟨S700000, .i1⟩
  | 32 => ⟨S_, .i32⟩
  | 33 => ⟨S700000, .i32⟩
  | 34 => ⟨S700000, .i32⟩
  | 35 => ⟨S700000, .i32⟩
  | 36 => ⟨S700000x1, .i32⟩
  | 37 => ⟨S700000, .f32⟩
  | 38 => ⟨S_, .i32⟩
  | 39 => ⟨S700000, .i32⟩
  | 40 => ⟨S700000, .i1⟩
  | 41 => ⟨S_, .i32⟩
  | 42 => ⟨S700000, .i32⟩
  | 43 => ⟨S700000, .i32⟩
  | 44 => ⟨S700000, .i32⟩
  | 45 => ⟨S700000x1, .i32⟩
  | 46 => ⟨S700000, .f32⟩
  | 47 => ⟨S700000, .f32⟩
  | 48 => ⟨S_, .i32⟩
  | 49 => ⟨S700000, .i32⟩
  | 50 => ⟨S700000, .i1⟩
  | 51 => ⟨S_, .i32⟩
  | 52 => ⟨S700000, .i32⟩
  | 53 => ⟨S700000, .i32⟩
  | 54 => ⟨S700000, .i32⟩
  | 55 => ⟨S700000x1, .i32⟩
  | 56 => ⟨S700000x128, .f32⟩
  | 57 => ⟨S700000x1, .f32⟩
  | 58 => ⟨S700000x128, .f32⟩
  | 59 => ⟨S700000x128, .f32⟩
  | 60 => ⟨S_, .f32⟩
  | 61 => ⟨S100000x128, .f32⟩
  | 62 => ⟨S700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .f32⟩
  | 71 => ⟨S100000x128, .f32⟩
  | 72 => ⟨S100000x128, .i1⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x10, .f32⟩
  | 79 => ⟨S100000, .i32⟩
  | 80 => ⟨S700000, .i32⟩
  | 81 => ⟨S700000, .i32⟩
  | 82 => ⟨S_, .f32⟩
  | 83 => ⟨S700000, .f32⟩
  | 84 => ⟨S_, .f32⟩
  | 85 => ⟨S100000, .f32⟩
  | 86 => ⟨S700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S700000, .i32⟩
  | 98 => ⟨S700000, .i1⟩
  | 99 => ⟨S_, .i32⟩
  | 100 => ⟨S700000, .i32⟩
  | 101 => ⟨S700000, .i32⟩
  | 102 => ⟨S700000, .i32⟩
  | 103 => ⟨S700000x1, .i32⟩
  | 104 => ⟨S700000, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000, .f32⟩
  | 114 => ⟨S700000, .f32⟩
  | 115 => ⟨S_, .i32⟩
  | 116 => ⟨S700000, .i32⟩
  | 117 => ⟨S700000, .i1⟩
  | 118 => ⟨S_, .i32⟩
  | 119 => ⟨S700000, .i32⟩
  | 120 => ⟨S700000, .i32⟩
  | 121 => ⟨S700000, .i32⟩
  | 122 => ⟨S700000x1, .i32⟩
  | 123 => ⟨S700000x10, .f32⟩
  | 124 => ⟨S700000x1, .f32⟩
  | 125 => ⟨S700000x10, .f32⟩
  | 126 => ⟨S700000x10, .f32⟩
  | 127 => ⟨S_, .f32⟩
  | _ => ⟨S100000x512, .f32⟩

abbrev hbmTy0_1 (i : Nat) : BufTy := match i % 128 with
  | 0 => ⟨S100000x10, .f32⟩
  | 1 => ⟨S700000x1, .i32⟩
  | 2 => ⟨S100000x10, .f32⟩
  | 3 => ⟨S1x10, .f32⟩
  | 4 => ⟨S100000x10, .f32⟩
  | 5 => ⟨S100000x10, .f32⟩
  | 6 => ⟨S_, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x10, .f32⟩
  | 13 => ⟨S100000x10, .f32⟩
  | 14 => ⟨S100000x10, .f32⟩
  | 15 => ⟨S_, .f32⟩
  | 16 => ⟨S100000, .f32⟩
  | 17 => ⟨S100000x1, .f32⟩
  | 18 => ⟨S100000x10, .f32⟩
  | 19 => ⟨S100000x10, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_19 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x10_0_1 : S700000x1.BroadcastsInDim S700000x10 (![0, 1] : Fin 2 → Fin S700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x512_S512x128_S100000x128_1_0_0_1_n_n_wf : DotDims.WF S100000x512 S512x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x10_S100000x10_1_0_0_1_n_n_wf : DotDims.WF S100000x128 S128x10 S100000x10 [1] [0] [0] [1] [] []
  gather_S100000x10_S700000x1_S700000x10_1_0_n_n_0_1_110_wf : GatherDims.WF S100000x10 S700000x1 S700000x10 [1] [0] [] [0] [] 1 ![1, 10]
  scatter_S100000x10_S700000x1_S700000x10_1_0_0_1_wf : ScatterDims.WF S100000x10 S700000x1 S700000x10 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S700000x1_S700000x10_1_0_n_n_0_1_110 : GatherDims S100000x10 S700000x1 S700000x10 where
  offsetDims := [1]
  collapsedSliceDims := [0]
  operandBatchingDims := []
  startIndicesBatchingDims := []
  startIndexMap := [0]
  indexVectorDim := 1
  sliceSizes := ![1, 10]
  wf := gather_S100000x10_S700000x1_S700000x10_1_0_n_n_0_1_110_wf
def scatter_S100000x10_S700000x1_S700000x10_1_0_0_1 : ScatterDims S100000x10 S700000x1 S700000x10 where
  updateWindowDims := [1]
  insertedWindowDims := [0]
  scatterDimsToOperandDims := [0]
  indexVectorDim := 1
  wf := scatter_S100000x10_S700000x1_S700000x10_1_0_0_1_wf

class Facts : Prop extends Facts₀ where

variable [Facts]
-- ==== Proof.KRun.lean ====
/-
  The idealized kernel's run with its RESULT named. The program is four kernel regions among stretches of host
  operations; the frame of that run keeps, at every segment boundary, the contents of every buffer the TensorCore
  holds, so after the last region the result buffer holds what the fold of the segments leaves there
  (`W9 m ρ c` at the result's reference: the fourth region's output array after its write-backs), and each argument
  array is as launched. This is the frame's own argument with the result's buffer read out beside the arguments.
-/
import proofs.«179368_j60370060312681_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the fold's
    contents at the result's reference, and every argument array is as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.Region0.lean ====
/-
  REGION 0: the first matmul, x · W1, block by block against ONE whole product.
  The region's grid has 25 points; point t stages rows 4000·t … 4000·t + 3999 of the left operand and the whole right
  operand, and its body stores the product of the two blocks (both rounded to bf16 on the way in, which at the ideal
  values changes nothing) accumulated into zero. Read at an index (r, n) of the block that is the sum over k of
  left (r, k) · right (k, n); the left block's row r is row 4000·t + r of the array. So what point t writes back is
  block t of ONE function of the two arrays: the host's dot_general of them, read at an index as the same sum
  (the reference's own stage). The 25 blocks tile the rows, so after the region the output array is that function.
-/
import proofs.«179368_j60370060312681_2_alg».proof.Proof.Gen.KernelIdeal.Frame
import proofs.«179368_j60370060312681_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Hand0

open Cert.KernelIdeal Cert.KernelIdeal.Gen

abbrev DK := dot_S4000x512_S512x128_S4000x128_1_0_0_1_n_n

theorem hz : (![0, 0] : Fin 2 → Nat) = fun _ => 0 := funext fun a => by fin_cases a <;> rfl

/-! ## The contraction's operand indices -/

theorem lhs_0 (i : S4000x128.Idx) (q : DK.contr.Idx) : (DK.lhsIdx i q 0).val = (i 0).val := by
  unfold DotDims.lhsIdx
  rw [dif_neg (show ¬(0 : Fin S4000x512.rank) ∈ DK.lhsBatch by decide), dif_pos (show (0 : Fin S4000x512.rank) ∈ DK.lhsNonContracting by decide)]
  rfl
theorem lhs_1 (i : S4000x128.Idx) (q : DK.contr.Idx) : (DK.lhsIdx i q 1).val = (q ⟨0, by decide⟩).val :=
  DK.lhsIdx_val_of_single rfl i q
theorem rhs_0 (i : S4000x128.Idx) (q : DK.contr.Idx) : (DK.rhsIdx i q 0).val = (q ⟨0, by decide⟩).val :=
  DK.rhsIdx_val_of_single rfl i q
theorem rhs_1 (i : S4000x128.Idx) (q : DK.contr.Idx) : (DK.rhsIdx i q 1).val = (i 1).val := by
  unfold DotDims.rhsIdx
  rw [dif_neg (show ¬(1 : Fin S512x128.rank) ∈ DK.rhsBatch by decide), dif_pos (show (1 : Fin S512x128.rank) ∈ DK.rhsNonContracting by decide)]
  rfl

/-- Row r of the left block with the contraction coordinate k. -/
abbrev lcell (j : S4000x128.Idx) (k : Fin 512) : S4000x512.Idx := fun a => match a with
  | ⟨0, _⟩ => ⟨(j 0).val, (j 0).isLt⟩
  | ⟨1, _⟩ => ⟨k.val, k.isLt⟩
/-- The contraction coordinate k with column n of the right block. -/
abbrev rcell (j : S4000x128.Idx) (k : Fin 512) : S512x128.Idx := fun a => match a with
  | ⟨0, _⟩ => ⟨k.val, k.isLt⟩
  | ⟨1, _⟩ => ⟨(j 1).val, (j 1).isLt⟩

/-- The body's stored value at an index of the block: the sum over the contraction coordinate of the products. -/
theorem pay_apply (x0 : FVec Ideal S4000x512 .f32) (x1 : FVec Ideal S512x128 .f32) (j : S4000x128.Idx) :
    k0_pay1 (F := Ideal) x0 x1 j = ∑ k : Fin 512, x0 (lcell j k) * x1 (rcell j k) := by
  show FloatOps.matmul (F := Ideal) DK none (truncf (F := Ideal) .bf16 x0 bitsLt_bf16_f32) (truncf (F := Ideal) .bf16 x1 bitsLt_bf16_f32) (constant S4000x128 .f32 0x00000000#32) j = _
  rw [Ideal.matmul_constant_zero_apply, ← Equiv.sum_comp (ValueIdx.contrEquiv1 DK 512 rfl rfl).symm]
  refine Finset.sum_congr rfl fun k _ => ?_
  have hk := ValueIdx.contrEquiv1_symm_val DK 512 rfl rfl k
  have el : DK.lhsIdx j ((ValueIdx.contrEquiv1 DK 512 rfl rfl).symm k) = lcell j k := funext fun a => Fin.ext (by
    match a with
    | ⟨0, _⟩ => exact lhs_0 _ _
    | ⟨1, _⟩ => exact (lhs_1 _ _).trans hk)
  have er : DK.rhsIdx j ((ValueIdx.contrEquiv1 DK 512 rfl rfl).symm k) = rcell j k := funext fun a => Fin.ext (by
    match a with
    | ⟨0, _⟩ => exact (rhs_0 _ _).trans hk
    | ⟨1, _⟩ => exact rhs_1 _ _)
  show x0 (DK.lhsIdx j ((ValueIdx.contrEquiv1 DK 512 rfl rfl).symm k)) * x1 (DK.rhsIdx j ((ValueIdx.contrEquiv1 DK 512 rfl rfl).symm k)) = _
  rw [el, er]

/-! ## The windows' block indices over the grid -/

/-- Point t's blocks: the left operand's and the output's at block row t, the right operand's at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The product of the two whole arrays, as the host computes it. -/
abbrev G (a0 : FVec Ideal S100000x512 .f32) (a1 : FVec Ideal S512x128 .f32) : FVec Ideal S100000x128 .f32 :=
  Cert.ReferenceIdeal.ReadP.val_main_v4 (F := Ideal) a0 a1

/-- The whole-array product at an index: the sum over k of left (row, k) · right (k, column). -/
theorem G_apply (a0 : FVec Ideal S100000x512 .f32) (a1 : FVec Ideal S512x128 .f32) (i : S100000x128.Idx) :
    G a0 a1 i = ∑ k : Fin 512, a0 (Cert.ReferenceIdeal.ReadP.lidx_main_v4 i k) * a1 (Cert.ReferenceIdeal.ReadP.ridx_main_v4 i k) := by
  exact Cert.ReferenceIdeal.ReadP.val_main_v4_apply a0 a1 i

/-- One term of the contraction's sum, read at equal indices. -/
theorem cell_eq (A : FVec Ideal S100000x512 .f32) (B : FVec Ideal S512x128 .f32) {i0 i0' : S100000x512.Idx} {i1 i1' : S512x128.Idx}
    (h0 : i0 = i0') (h1 : i1 = i1') : A i0 * B i1 = A i0' * B i1' := by rw [h0, h1]

/-- WHAT POINT t WRITES BACK is block t of the whole-array product of the arrays as the region finds them. -/
theorem flushed_eq (c : Dev nD) (t : Fin cfg0.N) :
    (dat0 V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨e0, e1, e2, e3, e4, e5⟩ := idx_facts t
  funext j
  show k0_pay1 (F := Ideal) (iblk0 V c 0 t) (iblk0 V c 1 t) j = G (V c main_arg0) (V c main_arg3) (((cfg0.win 2).blk t).view.emb j)
  rw [G_apply]
  refine (pay_apply (iblk0 V c 0 t) (iblk0 V c 1 t) j).trans ?_
  refine Finset.sum_congr rfl fun k _ => ?_
  have h0 : ((cfg0.win 0).blk t).view.emb (lcell j k) = Cert.ReferenceIdeal.ReadP.lidx_main_v4 (((cfg0.win 2).blk t).view.emb j) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  have h1 : ((cfg0.win 1).blk t).view.emb (rcell j k) = Cert.ReferenceIdeal.ReadP.ridx_main_v4 (((cfg0.win 2).blk t).view.emb j) k := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  exact cell_eq (V c main_arg0) (V c main_arg3) h0 h1

/-- An index of the output array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Every row of the output array lies in the block of the point numbered by the row's quotient by 4000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_2 _, ?_⟩
  rw [mem_blk]
  obtain ⟨e0, e1, e2, e3, e4, e5⟩ := idx_facts ⟨(i 0).val / 4000, by rw [hN]; omega⟩
  intro a
  match a with
  | ⟨0, _⟩ => show win0_2.index _ (0 : Fin 2) * 4000 ≤ (i 0).val ∧ (i 0).val < win0_2.index _ (0 : Fin 2) * 4000 + 4000; rw [e4]; show (i 0).val / 4000 * 4000 ≤ (i 0).val ∧ (i 0).val < (i 0).val / 4000 * 4000 + 4000; omega
  | ⟨1, _⟩ => show win0_2.index _ (1 : Fin 2) * 128 ≤ (i 1).val ∧ (i 1).val < win0_2.index _ (1 : Fin 2) * 128 + 128; rw [e5]; omega

/-- THE ARRAY after the region: the whole-array product of the two operand arrays as the region finds them. -/
theorem final (c : Dev nD) : (dat0 V c).arrAt 2 cfg0.N = G (V c main_arg0) (V c main_arg3) :=
  (dat0 V c).arrAt_eq_of_cover 2 (G (V c main_arg0) (V c main_arg3)) (fun t _ => flushed_eq V c t) cover

end Cert.KernelIdeal.Hand0

end
-- ==== Proof.Region1.lean ====
/-
  REGION 1: bias, relu and dropout, elementwise.
  Point t stages rows 4000·t … 4000·t + 3999 of the aggregated features and of the dropout draws, and the one bias row.
  At (r, n) the body stores  max (a + b n) 0 · keep · s,  keep being 1 where the draw is at least the threshold and 0
  elsewhere, and s the kernel's scale constant, which denotes 8388608 / 7549747 — the reciprocal of what the reference's
  divisor 0x3F666666 denotes, 7549747 / 8388608. On the extended reals dividing by a nonzero real IS multiplying by its
  reciprocal (at the infinities too), and the kernel's mask, the comparison's bit widened to 32 bits and read signed,
  is the bit read unsigned: so the stored value is  max (a + b n) 0 · keep / d,  the reference's element. The 25 row
  blocks tile the array, so after the region the output array is that function of the three arrays.
-/
import proofs.«179368_j60370060312681_2_alg».proof.Proof.Gen.KernelIdeal.Frame
import proofs.«179368_j60370060312681_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Hand1

open Cert.KernelIdeal Cert.KernelIdeal.Gen Idealize.ShloMosaic.ValueIdx

theorem hz : (![0, 0] : Fin 2 → Nat) = fun _ => 0 := funext fun a => by fin_cases a <;> rfl

/-! ## One element -/

/-- The dropout mask at one draw: 1 where the draw is at least the threshold's value, else 0 (the comparison's bit read unsigned). -/
def keep (u : EReal) : EReal :=
  FloatOps.uitofp (F := Ideal) .f32 (FloatOps.cmpf (F := Ideal) (φ := .f32) .oge u (Ideal.ofBits .f32 0x3DCCCCCD#32))

/-- One element of the layer's activation: bias, relu, mask, then the quotient by the keep probability's value. -/
def act (a b u : EReal) : EReal :=
  Ideal.div (max (a + b) (Ideal.ofBits .f32 0x00000000#32) * keep u) (Ideal.ofBits .f32 0x3F666666#32)

/-- The reference's divisor: the pattern 0x3F666666 denotes 7549747 / 8388608. -/
theorem ofBits_keep_prob : Ideal.ofBits .f32 0x3F666666#32 = ((7549747 / 8388608 : ℝ) : EReal) := by
  simp [Ideal.ofBits, Ideal.ieee, -EReal.coe_mul]; norm_num

/-- The kernel's scale constant denotes 8388608 / 7549747, by the certificate's table. -/
theorem keep_scale : Named.named (F := Ideal) κ "keep_scale" (φ := .f32) 0x3F8E38E4#32 = ((8388608 / 7549747 : ℝ) : EReal) :=
  IdealRules.named_const.ideal_named_scalar _ _ _ _ rfl

/-- A one-bit word widened to 32 bits and read signed is the bit read unsigned. -/
theorem widen_signed (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : Int) := by revert b; decide
  rw [h, Int.cast_natCast]

/-- The kernel's element — the product with the scale constant — is the reference's — the quotient by the divisor. -/
theorem scaled_eq_act (a b u : EReal) :
    (max (a + b) (Ideal.ofBits .f32 0x00000000#32)
        * FloatOps.sitofp (F := Ideal) .f32 ((FloatOps.cmpf (F := Ideal) (φ := .f32) .oge u (Ideal.ofBits .f32 0x3DCCCCCD#32)).setWidth 32))
      * Named.named (F := Ideal) κ "keep_scale" (φ := .f32) 0x3F8E38E4#32 = act a b u := by
  unfold act keep
  rw [widen_signed, keep_scale, ofBits_keep_prob, Ideal.div_coe (by norm_num : (7549747 / 8388608 : ℝ) ≠ 0)]
  congr 2
  norm_num

/-- The body's stored value at (r, n) of the block. -/
theorem pay_apply (x0 : FVec Ideal S4000x128 .f32) (x1 : FVec Ideal S1x128 .f32) (x2 : FVec Ideal S4000x128 .f32) (p : Fin 4000) (q : Fin 128) :
    k1_pay1 (F := Ideal) x0 x1 x2 (ix2 p q) = act (x0 (ix2 p q)) (x1 (ix2 (0 : Fin 1) q)) (x2 (ix2 p q)) := by
  refine Eq.trans ?_ (scaled_eq_act _ _ _)
  have hb : broadcastTo S4000x128 (shapeCast S1x128 x1 shapeCasts_S1x128_S1x128) broadcasts_S1x128_S4000x128 (ix2 p q) = x1 (ix2 (0 : Fin 1) q) := by
    rw [shapeCast_self]; exact broadcastTo_1b_ab_apply x1 _ p q
  have ha : shapeCast S4000x128 x0 shapeCasts_S4000x128_S4000x128 = x0 := shapeCast_self x0 _
  unfold k1_pay1
  simp only [ValueIdx.mulf_apply, ValueIdx.maximumf_apply, ValueIdx.addf_apply, ValueIdx.broadcast_apply, ValueIdx.sitofp_apply,
    ValueIdx.extui_apply, ValueIdx.cmpf_apply, ha, hb]
  rfl

/-! ## The windows' block indices over the grid -/

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The bias row's entry under column n. -/
abbrev brow (i : S100000x128.Idx) : S1x128.Idx := fun a => match a with
  | ⟨0, _⟩ => ⟨0, Nat.one_pos⟩
  | ⟨1, _⟩ => ⟨(i 1).val, (i 1).isLt⟩

/-- The whole activation: every element of the aggregated array with its column's bias and its own draw. -/
def G (a : FVec Ideal S100000x128 .f32) (b : FVec Ideal S1x128 .f32) (u : FVec Ideal S100000x128 .f32) : FVec Ideal S100000x128 .f32 :=
  fun i => act (a i) (b (brow i)) (u i)

/-- WHAT POINT t WRITES BACK is block t of the whole activation of the arrays as the region finds them. -/
theorem flushed_eq (c : Dev nD) (t : Fin cfg1.N) :
    (dat1 V c).flushed 3 t = ((cfg1.win 3).blk t).view.read (Elt Ideal) (G (V c main_v43) (V c main_v44) (V c main_arg2)) := by
  show (cfg1.win 3).cut (grid1.coords t) ((dat1 V c).after 3 t) = _
  rw [after1_3]
  unfold out1_3
  rw [View.canon_unit_zero hz]
  simp only [View.ld_unit_zero (S := S4000x128) hz, View.ld_unit_zero (S := S1x128) hz]
  obtain ⟨e0, e1, e2, e3, e4, e5, e6, e7⟩ := idx_facts t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (ix2 p q) = G (V c main_v43) (V c main_v44) (V c main_arg2) (((cfg1.win 3).blk t).view.emb (ix2 p q))
  refine (pay_apply (iblk1 V c 0 t) (iblk1 V c 1 t) (iblk1 V c 2 t) p q).trans ?_
  show act ((V c main_v43 : FVec Ideal S100000x128 .f32) (((cfg1.win 0).blk t).view.emb (ix2 p q)))
        ((V c main_v44 : FVec Ideal S1x128 .f32) (((cfg1.win 1).blk t).view.emb (ix2 (0 : Fin 1) q)))
        ((V c main_arg2 : FVec Ideal S100000x128 .f32) (((cfg1.win 2).blk t).view.emb (ix2 p q))) = _
  have h0 : ((cfg1.win 0).blk t).view.emb (ix2 p q) = ((cfg1.win 3).blk t).view.emb (ix2 p q) := by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * q.val = win1_3.index t (1 : Fin 2) * 128 + 1 * q.val; omega
  have h2 : ((cfg1.win 2).blk t).view.emb (ix2 p q) = ((cfg1.win 3).blk t).view.emb (ix2 p q) := by
    funext a; apply Fin.ext
    match a with
    | ⟨0, _⟩ => show win1_2.index t (0 : Fin 2) * 4000 + 1 * p.val = win1_3.index t (0 : Fin 2) * 4000 + 1 * p.val; omega
    | ⟨1, _⟩ => show win1_2.index t (1 : Fin 2) * 128 + 1 * q.val = win1_3.index t (1 : Fin 2) * 128 + 1 * q.val; omega
  have h1 : ((cfg1.win 1).blk t).view.emb (ix2 (0 : Fin 1) q) = brow (((cfg1.win 3).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  rw [h0, h1, h2]
  rfl

theorem mem_blk (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v45).slice (win1_3.rect t)).set ↔ _
  rw [View.set_slice_whole, Rect.mem_set_unit]
  exact Iff.rfl

/-- Every row of the output array lies in the block of the point numbered by the row's quotient by 4000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_3 _, ?_⟩
  rw [mem_blk]
  obtain ⟨e0, e1, e2, e3, e4, e5, e6, e7⟩ := idx_facts ⟨(i 0).val / 4000, by rw [hN]; omega⟩
  intro a
  match a with
  | ⟨0, _⟩ => show win1_3.index _ (0 : Fin 2) * 4000 ≤ (i 0).val ∧ (i 0).val < win1_3.index _ (0 : Fin 2) * 4000 + 4000; rw [e6]; show (i 0).val / 4000 * 4000 ≤ (i 0).val ∧ (i 0).val < (i 0).val / 4000 * 4000 + 4000; omega
  | ⟨1, _⟩ => show win1_3.index _ (1 : Fin 2) * 128 ≤ (i 1).val ∧ (i 1).val < win1_3.index _ (1 : Fin 2) * 128 + 128; rw [e7]; omega

/-- THE ARRAY after the region: the whole activation of the three arrays as the region finds them. -/
theorem final (c : Dev nD) : (dat1 V c).arrAt 3 cfg1.N = G (V c main_v43) (V c main_v44) (V c main_arg2) :=
  (dat1 V c).arrAt_eq_of_cover 3 (G (V c main_v43) (V c main_v44) (V c main_arg2)) (fun t _ => flushed_eq V c t) cover

end Cert.KernelIdeal.Hand1

end
-- ==== Proof.Region2.lean ====
/-
  REGION 2: the second matmul, h · W2, block by block against ONE whole product.
  The region's grid has 25 points; point t stages rows 4000·t … 4000·t + 3999 of the left operand and the whole right
  operand, and its body stores the product of the two blocks (both rounded to bf16 on the way in, which at the ideal
  values changes nothing) accumulated into zero. Read at an index (r, n) of the block that is the sum over k of
  left (r, k) · right (k, n); the left block's row r is row 4000·t + r of the array. So what point t writes back is
  block t of ONE function of the two arrays: the host's dot_general of them, read at an index as the same sum
  (the reference's own stage). The 25 blocks tile the rows, so after the region the output array is that function.
-/
import proofs.«179368_j60370060312681_2_alg».proof.Proof.Gen.KernelIdeal.Frame
import proofs.«179368_j60370060312681_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Hand2

open Cert.KernelIdeal Cert.KernelIdeal.Gen

abbrev DK := dot_S4000x128_S128x10_S4000x10_1_0_0_1_n_n

theorem hz : (![0, 0] : Fin 2 → Nat) = fun _ => 0 := funext fun a => by fin_cases a <;> rfl

/-! ## The contraction's operand indices -/

theorem lhs_0 (i : S4000x10.Idx) (q : DK.contr.Idx) : (DK.lhsIdx i q 0).val = (i 0).val := by
  unfold DotDims.lhsIdx
  rw [dif_neg (show ¬(0 : Fin S4000x128.rank) ∈ DK.lhsBatch by decide), dif_pos (show (0 : Fin S4000x128.rank) ∈ DK.lhsNonContracting by decide)]
  rfl
theorem lhs_1 (i : S4000x10.Idx) (q : DK.contr.Idx) : (DK.lhsIdx i q 1).val = (q ⟨0, by decide⟩).val :=
  DK.lhsIdx_val_of_single rfl i q
theorem rhs_0 (i : S4000x10.Idx) (q : DK.contr.Idx) : (DK.rhsIdx i q 0).val = (q ⟨0, by decide⟩).val :=
  DK.rhsIdx_val_of_single rfl i q
theorem rhs_1 (i : S4000x10.Idx) (q : DK.contr.Idx) : (DK.rhsIdx i q 1).val = (i 1).val := by
  unfold DotDims.rhsIdx
  rw [dif_neg (show ¬(1 : Fin S128x10.rank) ∈ DK.rhsBatch by decide), dif_pos (show (1 : Fin S128x10.rank) ∈ DK.rhsNonContracting by decide)]
  rfl

/-- Row r of the left block with the contraction coordinate k. -/
abbrev lcell (j : S4000x10.Idx) (k : Fin 128) : S4000x128.Idx := fun a => match a with
  | ⟨0, _⟩ => ⟨(j 0).val, (j 0).isLt⟩
  | ⟨1, _⟩ => ⟨k.val, k.isLt⟩
/-- The contraction coordinate k with column n of the right block. -/
abbrev rcell (j : S4000x10.Idx) (k : Fin 128) : S128x10.Idx := fun a => match a with
  | ⟨0, _⟩ => ⟨k.val, k.isLt⟩
  | ⟨1, _⟩ => ⟨(j 1).val, (j 1).isLt⟩

/-- The body's stored value at an index of the block: the sum over the contraction coordinate of the products. -/
theorem pay_apply (x0 : FVec Ideal S4000x128 .f32) (x1 : FVec Ideal S128x10 .f32) (j : S4000x10.Idx) :
    k2_pay1 (F := Ideal) x0 x1 j = ∑ k : Fin 128, x0 (lcell j k) * x1 (rcell j k) := by
  have hs : shapeCast S4000x128 x0 shapeCasts_S4000x128_S4000x128 = x0 := shapeCast_self x0 _
  show FloatOps.matmul (F := Ideal) DK none (truncf (F := Ideal) .bf16 (shapeCast S4000x128 x0 shapeCasts_S4000x128_S4000x128) bitsLt_bf16_f32) (truncf (F := Ideal) .bf16 x1 bitsLt_bf16_f32) (constant S4000x10 .f32 0x00000000#32) j = _
  rw [hs, Ideal.matmul_constant_zero_apply, ← Equiv.sum_comp (ValueIdx.contrEquiv1 DK 128 rfl rfl).symm]
  refine Finset.sum_congr rfl fun k _ => ?_
  have hk := ValueIdx.contrEquiv1_symm_val DK 128 rfl rfl k
  have el : DK.lhsIdx j ((ValueIdx.contrEquiv1 DK 128 rfl rfl).symm k) = lcell j k := funext fun a => Fin.ext (by
    match a with
    | ⟨0, _⟩ => exact lhs_0 _ _
    | ⟨1, _⟩ => exact (lhs_1 _ _).trans hk)
  have er : DK.rhsIdx j ((ValueIdx.contrEquiv1 DK 128 rfl rfl).symm k) = rcell j k := funext fun a => Fin.ext (by
    match a with
    | ⟨0, _⟩ => exact (rhs_0 _ _).trans hk
    | ⟨1, _⟩ => exact rhs_1 _ _)
  show x0 (DK.lhsIdx j ((ValueIdx.contrEquiv1 DK 128 rfl rfl).symm k)) * x1 (DK.rhsIdx j ((ValueIdx.contrEquiv1 DK 128 rfl rfl).symm k)) = _
  rw [el, er]

/-! ## The windows' block indices over the grid -/

/-- Point t's blocks: the left operand's and the output's at block row t, the right operand's at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The host's dimension numbers of the whole product. -/
abbrev RD := Cert.ReferenceIdeal.dot_S100000x128_S128x10_S100000x10_1_0_0_1_n_n

/-- The product of the two whole arrays, as the host computes it. -/
abbrev G (a0 : FVec Ideal S100000x128 .f32) (a1 : FVec Ideal S128x10 .f32) : FVec Ideal S100000x10 .f32 :=
  Host.dotGeneral (F := Ideal) RD none a0 a1

/-- The whole-array product at an index: the sum over k of left (row, k) · right (k, column). -/
theorem G_apply (a0 : FVec Ideal S100000x128 .f32) (a1 : FVec Ideal S128x10 .f32) (i : S100000x10.Idx) :
    G a0 a1 i = ∑ k : Fin 128, a0 (Cert.ReferenceIdeal.ReadP.lidx_main_v54 i k) * a1 (Cert.ReferenceIdeal.ReadP.ridx_main_v54 i k) := by
  show Host.dotGeneral (F := Ideal) RD none a0 a1 i = _
  simp only [Host.dotGeneral]
  rw [Ideal.dotGeneral_apply, ← Equiv.sum_comp (ValueIdx.contrEquiv1 RD 128 rfl rfl).symm]
  refine Finset.sum_congr rfl fun k _ => ?_
  have hk := ValueIdx.contrEquiv1_symm_val RD 128 rfl rfl k
  have el : RD.lhsIdx i ((ValueIdx.contrEquiv1 RD 128 rfl rfl).symm k) = Cert.ReferenceIdeal.ReadP.lidx_main_v54 i k := funext fun a => Fin.ext (by
    match a with
    | ⟨0, _⟩ => exact Cert.ReferenceIdeal.ReadP.lhs_main_v54_0 _ _
    | ⟨1, _⟩ => exact (Cert.ReferenceIdeal.ReadP.lhs_main_v54_1 _ _).trans hk)
  have er : RD.rhsIdx i ((ValueIdx.contrEquiv1 RD 128 rfl rfl).symm k) = Cert.ReferenceIdeal.ReadP.ridx_main_v54 i k := funext fun a => Fin.ext (by
    match a with
    | ⟨0, _⟩ => exact (Cert.ReferenceIdeal.ReadP.rhs_main_v54_0 _ _).trans hk
    | ⟨1, _⟩ => exact Cert.ReferenceIdeal.ReadP.rhs_main_v54_1 _ _)
  rw [el, er]

/-- One term of the contraction's sum, read at equal indices. -/
theorem cell_eq (A : FVec Ideal S100000x128 .f32) (B : FVec Ideal S128x10 .f32) {i0 i0' : S100000x128.Idx} {i1 i1' : S128x10.Idx}
    (h0 : i0 = i0') (h1 : i1 = i1') : A i0 * B i1 = A i0' * B i1' := by rw [h0, h1]

/-- WHAT POINT t WRITES BACK is block t of the whole-array product of the arrays as the region finds them. -/
theorem flushed_eq (c : Dev nD) (t : Fin cfg2.N) :
    (dat2 V c).flushed 2 t = ((cfg2.win 2).blk t).view.read (Elt Ideal) (G (V c main_v45) (V c main_arg5)) := by
  show (cfg2.win 2).cut (grid2.coords t) ((dat2 V c).after 2 t) = _
  rw [after2_2]
  unfold out2_2
  rw [View.canon_unit_zero hz]
  simp only [View.ld_unit_zero (S := S4000x128) hz, View.ld_unit_zero (S := S128x10) hz]
  obtain ⟨e0, e1, e2, e3, e4, e5⟩ := idx_facts t
  funext j
  show k2_pay1 (F := Ideal) (iblk2 V c 0 t) (iblk2 V c 1 t) j = G (V c main_v45) (V c main_arg5) (((cfg2.win 2).blk t).view.emb j)
  rw [G_apply]
  refine (pay_apply (iblk2 V c 0 t) (iblk2 V c 1 t) j).trans ?_
  refine Finset.sum_congr rfl fun k _ => ?_
  have h0 : ((cfg2.win 0).blk t).view.emb (lcell j k) = Cert.ReferenceIdeal.ReadP.lidx_main_v54 (((cfg2.win 2).blk t).view.emb j) k := by
    funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  have h1 : ((cfg2.win 1).blk t).view.emb (rcell j k) = Cert.ReferenceIdeal.ReadP.ridx_main_v54 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 10 + 1 * (j 1).val = win2_2.index t (1 : Fin 2) * 10 + 1 * (j 1).val; omega
  exact cell_eq (V c main_v45) (V c main_arg5) h0 h1

/-- An index of the output array is in point t's block iff each coordinate is in the block's range on its axis. -/
theorem mem_blk (t : Fin cfg2.N) (i : S100000x10.Idx) :
    i ∈ ((cfg2.win 2).blk t).view.set ↔ ∀ a : Fin 2, win2_2.index t a * S4000x10.size a ≤ (i a).val ∧ (i a).val < win2_2.index t a * S4000x10.size a + S4000x10.size a := by
  show i ∈ ((View.whole main_v46).slice (win2_2.rect t)).set ↔ _
  rw [View.set_slice_whole, Rect.mem_set_unit]
  exact Iff.rfl

/-- Every row of the output array lies in the block of the point numbered by the row's quotient by 4000. -/
theorem cover (i : S100000x10.Idx) : ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 25 := N_2
  refine ⟨⟨(i 0).val / 4000, by rw [hN]; omega⟩, flush2_2 _, ?_⟩
  rw [mem_blk]
  obtain ⟨e0, e1, e2, e3, e4, e5⟩ := idx_facts ⟨(i 0).val / 4000, by rw [hN]; omega⟩
  intro a
  match a with
  | ⟨0, _⟩ => show win2_2.index _ (0 : Fin 2) * 4000 ≤ (i 0).val ∧ (i 0).val < win2_2.index _ (0 : Fin 2) * 4000 + 4000; rw [e4]; show (i 0).val / 4000 * 4000 ≤ (i 0).val ∧ (i 0).val < (i 0).val / 4000 * 4000 + 4000; omega
  | ⟨1, _⟩ => show win2_2.index _ (1 : Fin 2) * 10 ≤ (i 1).val ∧ (i 1).val < win2_2.index _ (1 : Fin 2) * 10 + 10; rw [e5]; omega

/-- THE ARRAY after the region: the whole-array product of the two operand arrays as the region finds them. -/
theorem final (c : Dev nD) : (dat2 V c).arrAt 2 cfg2.N = G (V c main_v45) (V c main_arg5) :=
  (dat2 V c).arrAt_eq_of_cover 2 (G (V c main_v45) (V c main_arg5)) (fun t _ => flushed_eq V c t) cover

end Cert.KernelIdeal.Hand2

end
-- ==== Proof.Region3.lean ====
/-
  REGION 3: bias and the row softmax.
  Point t stages rows 4000·t … 4000·t + 3999 of the aggregated logits and the one bias row. For a row r the body
  forms z n = a (r, n) + b n, the row's maximum M (the fold of max over the ten columns from −∞), the exponentials
  e n = exp (z n − M), their sum s, and stores e n / s: a function of the row alone. Read at (r, n) that is the row
  softmax of row 4000·t + r of the biased array, so what point t writes back is block t of ONE function of the two
  arrays; the 25 row blocks tile the array, so after the region the output array is that function.
-/
import proofs.«179368_j60370060312681_2_alg».proof.Proof.Gen.KernelIdeal.Frame
import proofs.«179368_j60370060312681_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Hand3

open Cert.KernelIdeal Cert.KernelIdeal.Gen Idealize.ShloMosaic.ValueIdx

theorem hz : (![0, 0] : Fin 2 → Nat) = fun _ => 0 := funext fun a => by fin_cases a <;> rfl

/-! ## One row -/

/-- A row's maximum: the fold of max over its ten entries from the value of the pattern 0xFF800000 (−∞). -/
def rowmax (z : Fin 10 → EReal) : EReal :=
  (Finset.univ : Finset (Fin 10)).fold max (Ideal.ofBits .f32 0xFF800000#32) z

/-- The row softmax at column n: exp (z n − max) over the sum of the row's exponentials. -/
def softRow (z : Fin 10 → EReal) (n : Fin 10) : EReal :=
  Ideal.div (Ideal.exp (z n - rowmax z)) (∑ k : Fin 10, Ideal.exp (z k - rowmax z))

/-! ## The column forms of a cast and a broadcast, read at an index -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two lane reductions of a block, read at a row -/

/-- The maximum over the columns, at row p: the row's maximum. -/
theorem rowmax_apply (v : FVec Ideal S4000x10 .f32) (h : S4000x10.Reduces [1] S4000) (hφ : FKind.Formats .f32)
    (hacc : (0xFF800000#32 : BitVec 32) = FKind.maximumf.neutral .f32 hφ) (p : Fin 4000) :
    multiReduction (F := Ideal) .maximumf [1] S4000 v 0xFF800000#32 h hφ hacc (ix1 p) = rowmax (fun n => v (ix2 p n)) := by
  refine (Ideal.multiReduction_maximumf_single v 0xFF800000#32 h hφ hacc (ix1 p)).trans ?_
  unfold rowmax
  refine congrArg (Finset.fold max (Ideal.ofBits .f32 0xFF800000#32) · (Finset.univ : Finset (Fin 10))) ?_
  funext n
  show v (h.lift (ix1 p) n) = v (ix2 p n)
  refine congrArg v (funext fun ax => Fin.ext ?_)
  match ax with
  | ⟨0, _⟩ => rfl
  | ⟨1, _⟩ => rfl

/-- The sum over the columns, at row p: the row's sum. -/
theorem rowsum_apply (v : FVec Ideal S4000x10 .f32) (h : S4000x10.Reduces [1] S4000) (hφ : FKind.Formats .f32)
    (hacc : (0x00000000#32 : BitVec 32) = FKind.add.neutral .f32 hφ) (p : Fin 4000) :
    multiReduction (F := Ideal) .add [1] S4000 v 0x00000000#32 h hφ hacc (ix1 p) = ∑ n : Fin 10, v (ix2 p n) := by
  refine (Ideal.multiReduction_add_single v 0x00000000#32 h hφ hacc (ix1 p)).trans ?_
  refine Finset.sum_congr rfl fun n _ => ?_
  refine congrArg v (funext fun ax => Fin.ext ?_)
  match ax with
  | ⟨0, _⟩ => rfl
  | ⟨1, _⟩ => rfl

/-! ## The body's stored value -/

/-- The body after the bias is added: subtract each row's maximum, exponentiate, divide by each row's sum. -/
def tail (v5 : FVec Ideal S4000x10 .f32) : FVec Ideal S4000x10 .f32 :=
  have v6 : FVec Ideal S4000 .f32 := multiReduction .maximumf [1] S4000 v5 0xFF800000#32 reduces_S4000x10_S4000 (.inl rfl) rfl
  have v7 : FVec Ideal S4000x1 .f32 := shapeCast S4000x1 v6 shapeCasts_S4000_S4000x1
  have v8 : FVec Ideal S4000x10 .f32 := broadcastTo S4000x10 v7 broadcasts_S4000x1_S4000x10
  have v9 : FVec Ideal S4000x10 .f32 := subf v5 v8
  have v10 : FVec Ideal S4000x10 .f32 := exp v9
  have v11 : FVec Ideal S4000 .f32 := multiReduction .add [1] S4000 v10 0x00000000#32 reduces_S4000x10_S4000 (.inl rfl) rfl
  have v12 : FVec Ideal S4000x1 .f32 := shapeCast S4000x1 v11 shapeCasts_S4000_S4000x1
  have v13 : FVec Ideal S4000x10 .f32 := broadcastTo S4000x10 v12 broadcasts_S4000x1_S4000x10
  divf v10 v13

/-- At (p, q) it is the row softmax of row p at column q. -/
theorem tail_apply (z : FVec Ideal S4000x10 .f32) (p : Fin 4000) (q : Fin 10) :
    tail z (ix2 p q) = softRow (fun n => z (ix2 p n)) q := by
  have hE : ∀ (r : Fin 4000) (n : Fin 10),
      exp (subf z (broadcastTo S4000x10 (shapeCast S4000x1 (multiReduction (F := Ideal) .maximumf [1] S4000 z 0xFF800000#32 reduces_S4000x10_S4000 (.inl rfl) rfl) shapeCasts_S4000_S4000x1) broadcasts_S4000x1_S4000x10)) (ix2 r n)
        = Ideal.exp (z (ix2 r n) - rowmax (fun k => z (ix2 r k))) := by
    intro r n
    show Ideal.exp (z (ix2 r n) - broadcastTo S4000x10 (shapeCast S4000x1 (multiReduction (F := Ideal) .maximumf [1] S4000 z 0xFF800000#32 reduces_S4000x10_S4000 (.inl rfl) rfl) shapeCasts_S4000_S4000x1) broadcasts_S4000x1_S4000x10 (ix2 r n)) = _
    rw [broadcastTo_a1_ab_apply, shapeCast_a_a1_apply]
    exact congrArg (fun M => Ideal.exp (z (ix2 r n) - M)) (rowmax_apply z _ _ _ r)
  unfold tail
  show Ideal.div (exp (subf z _) (ix2 p q)) (broadcastTo S4000x10 (shapeCast S4000x1 (multiReduction (F := Ideal) .add [1] S4000 (exp (subf z _)) 0x00000000#32 reduces_S4000x10_S4000 (.inl rfl) rfl) shapeCasts_S4000_S4000x1) broadcasts_S4000x1_S4000x10 (ix2 p q)) = _
  rw [broadcastTo_a1_ab_apply, shapeCast_a_a1_apply]
  refine (congrArg (Ideal.div _) (rowsum_apply _ _ _ _ p)).trans ?_
  unfold softRow
  rw [hE p q]
  exact congrArg (Ideal.div _) (Finset.sum_congr rfl fun k _ => hE p k)

/-- The body's stored value at (p, q) of the block: the row softmax of the biased row p. -/
theorem pay_apply (x0 : FVec Ideal S4000x10 .f32) (x1 : FVec Ideal S1x10 .f32) (p : Fin 4000) (q : Fin 10) :
    k3_pay1 (F := Ideal) x0 x1 (ix2 p q) = softRow (fun n => x0 (ix2 p n) + x1 (ix2 (0 : Fin 1) n)) q := by
  have hk : k3_pay1 (F := Ideal) x0 x1
      = tail (addf (shapeCast S4000x10 x0 shapeCasts_S4000x10_S4000x10) (broadcastTo S4000x10 (shapeCast S1x10 x1 shapeCasts_S1x10_S1x10) broadcasts_S1x10_S4000x10)) := rfl
  rw [hk, tail_apply]
  refine congrArg (softRow · q) (funext fun n => ?_)
  show shapeCast S4000x10 x0 shapeCasts_S4000x10_S4000x10 (ix2 p n) + broadcastTo S4000x10 (shapeCast S1x10 x1 shapeCasts_S1x10_S1x10) broadcasts_S1x10_S4000x10 (ix2 p n) = _
  rw [shapeCast_self, shapeCast_self, broadcastTo_1b_ab_apply]

/-! ## The windows' block indices over the grid -/

theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- Row r of the logits with column n. -/
abbrev cellAt (i : S100000x10.Idx) (n : Fin 10) : S100000x10.Idx := fun a => match a with
  | ⟨0, _⟩ => ⟨(i 0).val, (i 0).isLt⟩
  | ⟨1, _⟩ => ⟨n.val, n.isLt⟩

/-- The whole result: every row of the aggregated logits, biased, through the row softmax. -/
def G (a : FVec Ideal S100000x10 .f32) (b : FVec Ideal S1x10 .f32) : FVec Ideal S100000x10 .f32 :=
  fun i => softRow (fun n => a (cellAt i n) + b (ix2 (0 : Fin 1) n)) ⟨(i 1).val, (i 1).isLt⟩

/-- One biased entry, read at equal indices. -/
theorem cell_eq (A : FVec Ideal S100000x10 .f32) (B : FVec Ideal S1x10 .f32) {i0 i0' : S100000x10.Idx} {i1 i1' : S1x10.Idx}
    (h0 : i0 = i0') (h1 : i1 = i1') : A i0 + B i1 = A i0' + B i1' := by rw [h0, h1]

/-- WHAT POINT t WRITES BACK is block t of the whole result of the arrays as the region finds them. -/
theorem flushed_eq (c : Dev nD) (t : Fin cfg3.N) :
    (dat3 V c).flushed 2 t = ((cfg3.win 2).blk t).view.read (Elt Ideal) (G (V c main_v59) (V c main_v60)) := by
  show (cfg3.win 2).cut (grid3.coords t) ((dat3 V c).after 2 t) = _
  rw [after3_2]
  unfold out3_2
  rw [View.canon_unit_zero hz]
  simp only [View.ld_unit_zero (S := S4000x10) hz, View.ld_unit_zero (S := S1x10) hz]
  obtain ⟨e0, e1, e2, e3, e4, e5⟩ := idx_facts t
  funext j
  obtain ⟨p, q, rfl⟩ : ∃ (p : Fin 4000) (q : Fin 10), j = ix2 p q := ⟨j 0, j 1, eq_ix2 j⟩
  show k3_pay1 (F := Ideal) (iblk3 V c 0 t) (iblk3 V c 1 t) (ix2 p q) = G (V c main_v59) (V c main_v60) (((cfg3.win 2).blk t).view.emb (ix2 p q))
  refine (pay_apply (iblk3 V c 0 t) (iblk3 V c 1 t) p q).trans ?_
  unfold G
  have hq : (⟨((((cfg3.win 2).blk t).view.emb (ix2 p q)) 1).val, ((((cfg3.win 2).blk t).view.emb (ix2 p q)) 1).isLt⟩ : Fin 10) = q := by
    apply Fin.ext
    show win3_2.index t (1 : Fin 2) * 10 + 1 * q.val = q.val
    omega
  rw [hq]
  refine congrArg (softRow · q) (funext fun n => ?_)
  have h0 : ((cfg3.win 0).blk t).view.emb (ix2 p n) = cellAt (((cfg3.win 2).blk t).view.emb (ix2 p q)) n := by
    funext a; apply Fin.ext
    match a with
    | ⟨0, _⟩ => show win3_0.index t (0 : Fin 2) * 4000 + 1 * p.val = win3_2.index t (0 : Fin 2) * 4000 + 1 * p.val; omega
    | ⟨1, _⟩ => show win3_0.index t (1 : Fin 2) * 10 + 1 * n.val = n.val; omega
  have h1 : ((cfg3.win 1).blk t).view.emb (ix2 (0 : Fin 1) n) = ix2 (0 : Fin 1) n := by
    funext a; apply Fin.ext
    match a with
    | ⟨0, _⟩ => show win3_1.index t (0 : Fin 2) * 1 + 1 * 0 = 0; omega
    | ⟨1, _⟩ => show win3_1.index t (1 : Fin 2) * 10 + 1 * n.val = n.val; omega
  exact cell_eq (V c main_v59) (V c main_v60) h0 h1

theorem mem_blk (t : Fin cfg3.N) (i : S100000x10.Idx) :
    i ∈ ((cfg3.win 2).blk t).view.set ↔ ∀ a : Fin 2, win3_2.index t a * S4000x10.size a ≤ (i a).val ∧ (i a).val < win3_2.index t a * S4000x10.size a + S4000x10.size a := by
  show i ∈ ((View.whole main_v61).slice (win3_2.rect t)).set ↔ _
  rw [View.set_slice_whole, Rect.mem_set_unit]
  exact Iff.rfl

/-- Every row of the output array lies in the block of the point numbered by the row's quotient by 4000. -/
theorem cover (i : S100000x10.Idx) : ∃ t : Fin cfg3.N, (cfg3.win 2).flush t = true ∧ i ∈ ((cfg3.win 2).blk t).view.set := by
  have hi0 : (i 0).val < 100000 := (i 0).isLt
  have hi1 : (i 1).val < 10 := (i 1).isLt
  have hN : cfg3.N = 25 := N_3
  refine ⟨⟨(i 0).val / 4000, by rw [hN]; omega⟩, flush3_2 _, ?_⟩
  rw [mem_blk]
  obtain ⟨e0, e1, e2, e3, e4, e5⟩ := idx_facts ⟨(i 0).val / 4000, by rw [hN]; omega⟩
  intro a
  match a with
  | ⟨0, _⟩ => show win3_2.index _ (0 : Fin 2) * 4000 ≤ (i 0).val ∧ (i 0).val < win3_2.index _ (0 : Fin 2) * 4000 + 4000; rw [e4]; show (i 0).val / 4000 * 4000 ≤ (i 0).val ∧ (i 0).val < (i 0).val / 4000 * 4000 + 4000; omega
  | ⟨1, _⟩ => show win3_2.index _ (1 : Fin 2) * 10 ≤ (i 1).val ∧ (i 1).val < win3_2.index _ (1 : Fin 2) * 10 + 10; rw [e5]; omega

/-- THE ARRAY after the region: the whole result of the two arrays as the region finds them. -/
theorem final (c : Dev nD) : (dat3 V c).arrAt 2 cfg3.N = G (V c main_v59) (V c main_v60) :=
  (dat3 V c).arrAt_eq_of_cover 2 (G (V c main_v59) (V c main_v60)) (fun t _ => flushed_eq V c t) cover

end Cert.KernelIdeal.Hand3

end
-- ==== Proof.Host.lean ====
/-
  The host operations between the kernel regions, read as functions of what they find.
  The program's host side does three things, the same in the kernel's program and in the reference: (i) before the
  first region, from the edge list alone, the source and destination index arrays with the self loops appended and the
  symmetric normalisation of every edge; (ii) between regions, the graph aggregation of a feature array — gather the
  source rows, scale each by its edge's normalisation, scatter-add into the destination rows — of the 128-wide and of
  the 10-wide features; (iii) a bias vector re-laid as one row. Each stretch of operations is a fold over the buffers;
  read at the buffer a later region or stretch takes, the fold is the operations' composition applied to the buffers
  the stretch reads, and every buffer the stretch does not write keeps its contents.
-/
import proofs.«179368_j60370060312681_2_alg».proof.Proof.Gen.KernelIdeal.Frame
import proofs.«179368_j60370060312681_2_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

open Idealize.ShloMosaic Idealize.ShloMosaic.TcCoe Idealize.SL.Sem
open Idealize.ShloMosaic.Pipeline (Dat)
open scoped BigOperators

namespace Cert.KernelIdeal.HandHost

open Cert.KernelIdeal Cert.KernelIdeal.Gen Idealize.ShloMosaic.StableHlo

/-- The graph aggregation of a 128-wide feature array: rows gathered at the sources, scaled per edge, summed at the destinations. -/
def agg128 (lin : (⟨S100000x128, .f32⟩ : BufTy).Contents (Elt Ideal)) (s d : (⟨S700000, .i32⟩ : BufTy).Contents (Elt Ideal))
    (nrm : (⟨S700000, .f32⟩ : BufTy).Contents (Elt Ideal)) : (⟨S100000x128, .f32⟩ : BufTy).Contents (Elt Ideal) :=
  Host.scatterAdd (F := Ideal) scatter_S100000x128_S700000x1_S700000x128_1_0_0_1
    (broadcastInDim S100000x128 ![] bcast_S_S100000x128 (constant (F := Ideal) S_ .f32 0x00000000#32))
    (broadcastInDim S700000x1 ![0] bcast_S700000_S700000x1_0 d)
    (mulf (Host.gather gather_S100000x128_S700000x1_S700000x128_1_0_n_n_0_1_1128 lin
        (broadcastInDim S700000x1 ![0] bcast_S700000_S700000x1_0
          (select (cmpi .slt s (broadcastInDim S700000 ![] bcast_S_S700000 (constantI S_ 32 0#32)))
            (addi s (broadcastInDim S700000 ![] bcast_S_S700000 (constantI S_ 32 100000#32))) s)))
      (broadcastInDim S700000x128 ![0, 1] bcast_S700000x1_S700000x128_0_1 (broadcastInDim S700000x1 ![0] bcast_S700000_S700000x1_0 nrm)))

/-- The same aggregation of a 10-wide feature array. -/
def agg10 (lin : (⟨S100000x10, .f32⟩ : BufTy).Contents (Elt Ideal)) (s d : (⟨S700000, .i32⟩ : BufTy).Contents (Elt Ideal))
    (nrm : (⟨S700000, .f32⟩ : BufTy).Contents (Elt Ideal)) : (⟨S100000x10, .f32⟩ : BufTy).Contents (Elt Ideal) :=
  Host.scatterAdd (F := Ideal) scatter_S100000x10_S700000x1_S700000x10_1_0_0_1
    (broadcastInDim S100000x10 ![] bcast_S_S100000x10 (constant (F := Ideal) S_ .f32 0x00000000#32))
    (broadcastInDim S700000x1 ![0] bcast_S700000_S700000x1_0 d)
    (mulf (Host.gather gather_S100000x10_S700000x1_S700000x10_1_0_n_n_0_1_110 lin
        (broadcastInDim S700000x1 ![0] bcast_S700000_S700000x1_0
          (select (cmpi .slt s (broadcastInDim S700000 ![] bcast_S_S700000 (constantI S_ 32 0#32)))
            (addi s (broadcastInDim S700000 ![] bcast_S_S700000 (constantI S_ 32 100000#32))) s)))
      (broadcastInDim S700000x10 ![0, 1] bcast_S700000x1_S700000x10_0_1 (broadcastInDim S700000x1 ![0] bcast_S700000_S700000x1_0 nrm)))

variable (W : Valuation τ sig (Elt Ideal))

/-! ## The stretch between the first and the second region -/

theorem host1_v43 : after (hostOps1 (F := Ideal)) W (Proc.devRef .tc main_v43)
    = agg128 (W (Proc.devRef .tc main_v30)) (W (Proc.devRef .tc main_v5)) (W (Proc.devRef .tc main_v6)) (W (Proc.devRef .tc main_v29)) := by
  after_results_simp
  rfl

theorem host1_v44 : after (hostOps1 (F := Ideal)) W (Proc.devRef .tc main_v44)
    = shapeCast S1x128 (W (Proc.devRef .tc main_arg4)) shapeCasts_S128_S1x128 := by
  after_results_simp
  rfl

theorem host1_arg2 : after (hostOps1 (F := Ideal)) W (Proc.devRef .tc main_arg2) = W (Proc.devRef .tc main_arg2) := by after_results_simp
theorem host1_arg5 : after (hostOps1 (F := Ideal)) W (Proc.devRef .tc main_arg5) = W (Proc.devRef .tc main_arg5) := by after_results_simp
theorem host1_arg6 : after (hostOps1 (F := Ideal)) W (Proc.devRef .tc main_arg6) = W (Proc.devRef .tc main_arg6) := by after_results_simp
theorem host1_v5 : after (hostOps1 (F := Ideal)) W (Proc.devRef .tc main_v5) = W (Proc.devRef .tc main_v5) := by after_results_simp
theorem host1_v6 : after (hostOps1 (F := Ideal)) W (Proc.devRef .tc main_v6) = W (Proc.devRef .tc main_v6) := by after_results_simp
theorem host1_v29 : after (hostOps1 (F := Ideal)) W (Proc.devRef .tc main_v29) = W (Proc.devRef .tc main_v29) := by after_results_simp

/-! ## The stretch between the third and the fourth region -/

theorem host3_v59 : after (hostOps3 (F := Ideal)) W (Proc.devRef .tc main_v59)
    = agg10 (W (Proc.devRef .tc main_v46)) (W (Proc.devRef .tc main_v5)) (W (Proc.devRef .tc main_v6)) (W (Proc.devRef .tc main_v29)) := by
  after_results_simp
  rfl

theorem host3_arg6 : after (hostOps3 (F := Ideal)) W (Proc.devRef .tc main_arg6) = W (Proc.devRef .tc main_arg6) := by after_results_simp

theorem host3_v60 : after (hostOps3 (F := Ideal)) W (Proc.devRef .tc main_v60)
    = shapeCast S1x10 (W (Proc.devRef .tc main_arg6)) shapeCasts_S10_S1x10 := by
  after_results_simp
  rfl

end Cert.KernelIdeal.HandHost

end
-- ==== Proof.Host0.lean ====
/-
  The host operations before the first kernel region, read as functions of the edge list.
  From the edge list alone the program forms the source and the destination index arrays (the edges' two rows, each with
  the self loops 0 … 99999 appended), every node's degree (a scatter-add of ones at the destinations), its inverse square
  root where the degree is positive, and every edge's normalisation (the product of the two ends' factors). Read at the
  three buffers later stretches take, the fold of these operations is the reference's own stages of the same names'
  operations applied to the edge list; the other argument arrays are not written.
-/
import proofs.«179368_j60370060312681_2_alg».proof.Proof.Gen.KernelIdeal.Frame
import proofs.«179368_j60370060312681_2_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

open Idealize.ShloMosaic Idealize.ShloMosaic.TcCoe Idealize.SL.Sem
open Idealize.ShloMosaic.Pipeline (Dat)
open scoped BigOperators

namespace Cert.KernelIdeal.HandHost0

open Cert.KernelIdeal Cert.KernelIdeal.Gen Idealize.ShloMosaic.StableHlo

variable {F : FTy → Type} [FloatOps F] [Named F]
variable (W : Valuation τ sig (Elt F))

/-- The source indices: the edges' first row with the self loops appended. -/
theorem host0_v5 : after (hostOps0_2 (F := F)) (after (hostOps0_1 (F := F)) (after (hostOps0 (F := F)) W)) (Proc.devRef .tc main_v5)
    = Cert.ReferenceIdeal.ReadP.val_main_v6 (F := F) (W (Proc.devRef .tc main_arg1)) := by
  after_results_simp
  rfl

/-- The destination indices: the edges' second row with the self loops appended. -/
theorem host0_v6 : after (hostOps0_2 (F := F)) (after (hostOps0_1 (F := F)) (after (hostOps0 (F := F)) W)) (Proc.devRef .tc main_v6)
    = Cert.ReferenceIdeal.ReadP.val_main_v7 (F := F) (W (Proc.devRef .tc main_arg1)) := by
  after_results_simp
  rfl

/-- Every edge's normalisation. -/
theorem host0_v29 : after (hostOps0_2 (F := F)) (after (hostOps0_1 (F := F)) (after (hostOps0 (F := F)) W)) (Proc.devRef .tc main_v29)
    = Cert.ReferenceIdeal.ReadP.val_main_v30 (F := F) (W (Proc.devRef .tc main_arg1)) := by
  after_results_simp
  rfl

theorem host0_arg0 : after (hostOps0_2 (F := F)) (after (hostOps0_1 (F := F)) (after (hostOps0 (F := F)) W)) (Proc.devRef .tc main_arg0) = W (Proc.devRef .tc main_arg0) := by after_results_simp
theorem host0_arg2 : after (hostOps0_2 (F := F)) (after (hostOps0_1 (F := F)) (after (hostOps0 (F := F)) W)) (Proc.devRef .tc main_arg2) = W (Proc.devRef .tc main_arg2) := by after_results_simp
theorem host0_arg3 : after (hostOps0_2 (F := F)) (after (hostOps0_1 (F := F)) (after (hostOps0 (F := F)) W)) (Proc.devRef .tc main_arg3) = W (Proc.devRef .tc main_arg3) := by after_results_simp
theorem host0_arg4 : after (hostOps0_2 (F := F)) (after (hostOps0_1 (F := F)) (after (hostOps0 (F := F)) W)) (Proc.devRef .tc main_arg4) = W (Proc.devRef .tc main_arg4) := by after_results_simp
theorem host0_arg5 : after (hostOps0_2 (F := F)) (after (hostOps0_1 (F := F)) (after (hostOps0 (F := F)) W)) (Proc.devRef .tc main_arg5) = W (Proc.devRef .tc main_arg5) := by after_results_simp
theorem host0_arg6 : after (hostOps0_2 (F := F)) (after (hostOps0_1 (F := F)) (after (hostOps0 (F := F)) W)) (Proc.devRef .tc main_arg6) = W (Proc.devRef .tc main_arg6) := by after_results_simp

end Cert.KernelIdeal.HandHost0

end
-- ==== Proof.RefStages.lean ====
/-
  The reference, regrouped as the kernel's program is cut.
  The reference computes two graph-convolution layers on the host: a whole matrix product, the graph aggregation, the
  bias, relu, the dropout mask and the quotient by the keep probability; then again a product, the aggregation and the
  bias, and the row softmax. Its stages, one per operation, regroup into the same six functions the kernel's regions
  and host stretches compute: the two products and the two aggregations as they stand; the first layer's activation
  element by element (its bias row reads the bias vector's entry under the column, as the kernel's re-laid row does);
  and the softmax row by row — the reference takes the maximum with −∞ once more, which changes nothing, and starts its
  row sum from zero.
-/
import proofs.«179368_j60370060312681_2_alg».proof.Proof.RefReadP
import proofs.«179368_j60370060312681_2_alg».proof.Proof.Region0
import proofs.«179368_j60370060312681_2_alg».proof.Proof.Region1
import proofs.«179368_j60370060312681_2_alg».proof.Proof.Region2
import proofs.«179368_j60370060312681_2_alg».proof.Proof.Region3
import proofs.«179368_j60370060312681_2_alg».proof.Proof.Host
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open scoped BigOperators

namespace Cert.ReferenceIdeal.HandRef

open Cert.ReferenceIdeal Cert.ReferenceIdeal.Gen Cert.ReferenceIdeal.ReadP Idealize.ShloMosaic.ValueIdx

/-! ## The products and the aggregations, as they stand -/

theorem lin1_ref (x0 : (⟨S100000x512, .f32⟩ : BufTy).Contents (Elt Ideal)) (x3 : (⟨S512x128, .f32⟩ : BufTy).Contents (Elt Ideal)) :
    val_main_v4 (F := Ideal) x0 x3 = Cert.KernelIdeal.Hand0.G x0 x3 := rfl

theorem agg128_ref (x0 : (⟨S100000x512, .f32⟩ : BufTy).Contents (Elt Ideal)) (x1 : (⟨S2x600000, .i32⟩ : BufTy).Contents (Elt Ideal)) (x3 : (⟨S512x128, .f32⟩ : BufTy).Contents (Elt Ideal)) :
    val_main_v43 (F := Ideal) x0 x1 x3
      = Cert.KernelIdeal.HandHost.agg128 (val_main_v4 (F := Ideal) x0 x3) (val_main_v6 (F := Ideal) x1) (val_main_v7 (F := Ideal) x1) (val_main_v30 (F := Ideal) x1) := rfl

theorem lin2_ref (x0 : (⟨S100000x512, .f32⟩ : BufTy).Contents (Elt Ideal)) (x1 : (⟨S2x600000, .i32⟩ : BufTy).Contents (Elt Ideal)) (x2 : (⟨S100000x128, .f32⟩ : BufTy).Contents (Elt Ideal)) (x3 : (⟨S512x128, .f32⟩ : BufTy).Contents (Elt Ideal)) (x4 : (⟨S128, .f32⟩ : BufTy).Contents (Elt Ideal)) (x5 : (⟨S128x10, .f32⟩ : BufTy).Contents (Elt Ideal)) :
    val_main_v54 (F := Ideal) x0 x1 x2 x3 x4 x5 = Cert.KernelIdeal.Hand2.G (val_main_v53 (F := Ideal) x0 x1 x2 x3 x4) x5 := rfl

theorem agg10_ref (x0 : (⟨S100000x512, .f32⟩ : BufTy).Contents (Elt Ideal)) (x1 : (⟨S2x600000, .i32⟩ : BufTy).Contents (Elt Ideal)) (x2 : (⟨S100000x128, .f32⟩ : BufTy).Contents (Elt Ideal)) (x3 : (⟨S512x128, .f32⟩ : BufTy).Contents (Elt Ideal)) (x4 : (⟨S128, .f32⟩ : BufTy).Contents (Elt Ideal)) (x5 : (⟨S128x10, .f32⟩ : BufTy).Contents (Elt Ideal)) :
    val_main_v93 (F := Ideal) x0 x1 x2 x3 x4 x5
      = Cert.KernelIdeal.HandHost.agg10 (val_main_v54 (F := Ideal) x0 x1 x2 x3 x4 x5) (val_main_v6 (F := Ideal) x1) (val_main_v7 (F := Ideal) x1) (val_main_v30 (F := Ideal) x1) := rfl

/-! ## The first layer's activation, element by element -/

theorem act_ref (x0 : (⟨S100000x512, .f32⟩ : BufTy).Contents (Elt Ideal)) (x1 : (⟨S2x600000, .i32⟩ : BufTy).Contents (Elt Ideal)) (x2 : (⟨S100000x128, .f32⟩ : BufTy).Contents (Elt Ideal)) (x3 : (⟨S512x128, .f32⟩ : BufTy).Contents (Elt Ideal)) (x4 : (⟨S128, .f32⟩ : BufTy).Contents (Elt Ideal)) :
    val_main_v53 (F := Ideal) x0 x1 x2 x3 x4
      = Cert.KernelIdeal.Hand1.G (val_main_v43 (F := Ideal) x0 x1 x3) (shapeCast Cert.KernelIdeal.S1x128 x4 Cert.KernelIdeal.Gen.shapeCasts_S128_S1x128) x2 := by
  funext i
  obtain ⟨r, n, rfl⟩ : ∃ (r : Fin 100000) (n : Fin 128), i = ix2 r n := ⟨i 0, i 1, eq_ix2 i⟩
  rw [val_main_v53_apply, val_main_v51_apply, val_main_v47_apply, val_main_v46_apply, val_main_v45_apply, val_main_v44_apply,
    val_main_call1_v0_apply, val_main_call1_cst_apply, val_main_v50_apply, val_main_v49_apply, val_main_v48_apply, val_main_cst_9_apply,
    val_main_v52_apply, val_main_cst_10_apply]
  have hb : shapeCast Cert.KernelIdeal.S1x128 x4 Cert.KernelIdeal.Gen.shapeCasts_S128_S1x128 (Cert.KernelIdeal.Hand1.brow (ix2 r n)) = x4 (idx_main_v44 (idx_main_v45 (ix2 r n))) := by
    have e1 : Cert.KernelIdeal.Hand1.brow (ix2 r n) = ix2 (0 : Fin 1) n := funext fun a => Fin.ext (by
      match a with
      | ⟨0, _⟩ => rfl
      | ⟨1, _⟩ => rfl)
    have e2 : idx_main_v44 (idx_main_v45 (ix2 r n)) = ix1 n := funext fun a => Fin.ext (by
      match a with
      | ⟨0, _⟩ => rfl)
    rw [e1, e2]
    exact shapeCast_a_1a_apply x4 _ 0 n
  show _ = Cert.KernelIdeal.Hand1.act (val_main_v43 (F := Ideal) x0 x1 x3 (ix2 r n)) (shapeCast Cert.KernelIdeal.S1x128 x4 Cert.KernelIdeal.Gen.shapeCasts_S128_S1x128 (Cert.KernelIdeal.Hand1.brow (ix2 r n))) (x2 (ix2 r n))
  rw [hb]
  rfl

/-! ## The softmax, row by row -/

/-- The pattern 0xFF800000 denotes −∞. -/
theorem ofBits_neg_inf : Ideal.ofBits .f32 0xFF800000#32 = ⊥ := by
  simp [Ideal.ofBits, Ideal.ieee]

/-- A per-row value broadcast along the columns reads, at (r, n), the row's value. -/
theorem bcast_row {α : Type} (M : S100000.Idx → α) (r : Fin 100000) (n : Fin 10) :
    broadcastInDim S100000x10 ![0, 1] bcast_S100000x1_S100000x10_0_1 (broadcastInDim S100000x1 ![0] bcast_S100000_S100000x1_0 M) (ix2 r n)
      = M (ix1 r) := by
  rw [broadcastInDim_apply _ bcast_S100000x1_S100000x10_0_1 _ (ix2 r n) (ix2 r (0 : Fin 1)) (fun a => match a with
    | ⟨0, _⟩ => by show r.val = if (100000 : Nat) = 1 then 0 else r.val; rw [if_neg (by decide)]
    | ⟨1, _⟩ => by show 0 = if (1 : Nat) = 1 then 0 else n.val; rw [if_pos rfl])]
  exact broadcastInDim_apply _ bcast_S100000_S100000x1_0 M (ix2 r (0 : Fin 1)) (ix1 r) (fun a => match a with
    | ⟨0, _⟩ => by show r.val = if (100000 : Nat) = 1 then 0 else r.val; rw [if_neg (by decide)])

/-- The reference's softmax of a biased array: maximum, once more against −∞, subtract, exponentiate, sum, divide. -/
def refTail (Z : FVec Ideal S100000x10 .f32) : FVec Ideal S100000x10 .f32 :=
  Host.divf (F := Ideal)
    (Host.exp (F := Ideal) (subf Z (broadcastInDim S100000x10 ![0, 1] bcast_S100000x1_S100000x10_0_1 (broadcastInDim S100000x1 ![0] bcast_S100000_S100000x1_0
      (maximumf (val_main_v98 (F := Ideal)) (Host.reduce FloatOps.maximumf Z (val_main_cst_22 (F := Ideal)) reducesTo_S100000x10_S100000_d1 h_S_))))))
    (broadcastInDim S100000x10 ![0, 1] bcast_S100000x1_S100000x10_0_1 (broadcastInDim S100000x1 ![0] bcast_S100000_S100000x1_0
      (Host.reduceAdd (F := Ideal) (Host.exp (F := Ideal) (subf Z (broadcastInDim S100000x10 ![0, 1] bcast_S100000x1_S100000x10_0_1 (broadcastInDim S100000x1 ![0] bcast_S100000_S100000x1_0
        (maximumf (val_main_v98 (F := Ideal)) (Host.reduce FloatOps.maximumf Z (val_main_cst_22 (F := Ideal)) reducesTo_S100000x10_S100000_d1 h_S_))))))
        (val_main_cst_24 (F := Ideal)) reducesTo_S100000x10_S100000_d1 h_S_)))

theorem tail_ref (x0 : (⟨S100000x512, .f32⟩ : BufTy).Contents (Elt Ideal)) (x1 : (⟨S2x600000, .i32⟩ : BufTy).Contents (Elt Ideal)) (x2 : (⟨S100000x128, .f32⟩ : BufTy).Contents (Elt Ideal)) (x3 : (⟨S512x128, .f32⟩ : BufTy).Contents (Elt Ideal)) (x4 : (⟨S128, .f32⟩ : BufTy).Contents (Elt Ideal)) (x5 : (⟨S128x10, .f32⟩ : BufTy).Contents (Elt Ideal)) (x6 : (⟨S10, .f32⟩ : BufTy).Contents (Elt Ideal)) :
    val_main_v107 (F := Ideal) x0 x1 x2 x3 x4 x5 x6 = refTail (val_main_v96 (F := Ideal) x0 x1 x2 x3 x4 x5 x6) := rfl

/-- The row's maximum as the reference takes it, at row r. -/
theorem refMax_apply (Z : FVec Ideal S100000x10 .f32) (r : Fin 100000) :
    maximumf (val_main_v98 (F := Ideal)) (Host.reduce FloatOps.maximumf Z (val_main_cst_22 (F := Ideal)) reducesTo_S100000x10_S100000_d1 h_S_) (ix1 r)
      = Cert.KernelIdeal.Hand3.rowmax (fun k => Z (ix2 r k)) := by
  rw [ValueIdx.maximumf_apply, val_main_v98_apply, val_main_cst_23_apply, Host.reduce_eq_fold_single FloatOps.maximumf Z _ reducesTo_S100000x10_S100000_d1 (by decide) h_S_ (ix1 r),
    val_main_cst_22_apply]
  show max (Ideal.ofBits .f32 0xFF800000#32) _ = _
  rw [ofBits_neg_inf, max_eq_right bot_le]
  unfold Cert.KernelIdeal.Hand3.rowmax
  rw [ofBits_neg_inf]
  refine congrArg (Finset.fold max (⊥ : EReal) · (Finset.univ : Finset (Fin 10))) ?_
  funext k
  refine congrArg Z (funext fun ax => Fin.ext ?_)
  match ax with
  | ⟨0, _⟩ => rfl
  | ⟨1, _⟩ => rfl

/-- A host quotient at an index divides the elements. -/
theorem hostDivf_apply {s : Shape} {φ : FTy} (a b : FVec Ideal s φ) (i : s.Idx) : Host.divf (F := Ideal) a b i = Ideal.div (a i) (b i) := rfl

/-- A host exponential at an index exponentiates the element. -/
theorem hostExp_apply {s : Shape} {φ : FTy} (a : FVec Ideal s φ) (i : s.Idx) : Host.exp (F := Ideal) a i = Ideal.exp (a i) := rfl

/-- The reference's row sum from zero, at row r: the sum of the row's entries. -/
theorem refSum_apply (E : FVec Ideal S100000x10 .f32) (r : Fin 100000) :
    Host.reduceAdd (F := Ideal) E (val_main_cst_24 (F := Ideal)) reducesTo_S100000x10_S100000_d1 h_S_ (ix1 r) = ∑ k : Fin 10, E (ix2 r k) := by
  simp only [Host.reduceAdd, Ideal.hostReduceAdd_def]
  rw [Ideal.hostReduceAdd_single reducesTo_S100000x10_S100000_d1 (by decide), val_main_cst_24_apply]
  show Ideal.ofBits .f32 0x00000000#32 + _ = _
  rw [Ideal.ofBits_zero_f32, zero_add]
  refine Finset.sum_congr rfl fun k _ => ?_
  refine congrArg E (funext fun ax => Fin.ext ?_)
  match ax with
  | ⟨0, _⟩ => rfl
  | ⟨1, _⟩ => rfl

/-- At (r, n) the reference's softmax is the row softmax of row r at column n. -/
theorem refTail_apply (Z : FVec Ideal S100000x10 .f32) (r : Fin 100000) (n : Fin 10) :
    refTail Z (ix2 r n) = Cert.KernelIdeal.Hand3.softRow (fun k => Z (ix2 r k)) n := by
  have hE : ∀ k : Fin 10,
      Host.exp (F := Ideal) (subf Z (broadcastInDim S100000x10 ![0, 1] bcast_S100000x1_S100000x10_0_1 (broadcastInDim S100000x1 ![0] bcast_S100000_S100000x1_0
        (maximumf (val_main_v98 (F := Ideal)) (Host.reduce FloatOps.maximumf Z (val_main_cst_22 (F := Ideal)) reducesTo_S100000x10_S100000_d1 h_S_))))) (ix2 r k)
        = Ideal.exp (Z (ix2 r k) - Cert.KernelIdeal.Hand3.rowmax (fun k' => Z (ix2 r k'))) := by
    intro k
    rw [hostExp_apply, ValueIdx.subf_apply, bcast_row, refMax_apply]
  unfold refTail
  rw [hostDivf_apply, bcast_row, refSum_apply, hE n]
  unfold Cert.KernelIdeal.Hand3.softRow
  exact congrArg (Ideal.div _) (Finset.sum_congr rfl fun k _ => hE k)

theorem soft_ref (x0 : (⟨S100000x512, .f32⟩ : BufTy).Contents (Elt Ideal)) (x1 : (⟨S2x600000, .i32⟩ : BufTy).Contents (Elt Ideal)) (x2 : (⟨S100000x128, .f32⟩ : BufTy).Contents (Elt Ideal)) (x3 : (⟨S512x128, .f32⟩ : BufTy).Contents (Elt Ideal)) (x4 : (⟨S128, .f32⟩ : BufTy).Contents (Elt Ideal)) (x5 : (⟨S128x10, .f32⟩ : BufTy).Contents (Elt Ideal)) (x6 : (⟨S10, .f32⟩ : BufTy).Contents (Elt Ideal)) :
    val_main_v107 (F := Ideal) x0 x1 x2 x3 x4 x5 x6
      = Cert.KernelIdeal.Hand3.G (val_main_v93 (F := Ideal) x0 x1 x2 x3 x4 x5) (shapeCast Cert.KernelIdeal.S1x10 x6 Cert.KernelIdeal.Gen.shapeCasts_S10_S1x10) := by
  rw [tail_ref]
  funext i
  obtain ⟨r, n, rfl⟩ : ∃ (r : Fin 100000) (n : Fin 10), i = ix2 r n := ⟨i 0, i 1, eq_ix2 i⟩
  rw [refTail_apply]
  show _ = Cert.KernelIdeal.Hand3.softRow (fun k => val_main_v93 (F := Ideal) x0 x1 x2 x3 x4 x5 (Cert.KernelIdeal.Hand3.cellAt (ix2 r n) k) + shapeCast Cert.KernelIdeal.S1x10 x6 Cert.KernelIdeal.Gen.shapeCasts_S10_S1x10 (ix2 (0 : Fin 1) k)) n
  refine congrArg (Cert.KernelIdeal.Hand3.softRow · n) (funext fun k => ?_)
  rw [val_main_v96_apply, val_main_v95_apply, val_main_v94_apply, shapeCast_a_1a_apply x6 _ 0 k]
  show val_main_v93 (F := Ideal) x0 x1 x2 x3 x4 x5 (ix2 r k) + x6 (idx_main_v94 (idx_main_v95 (ix2 r k))) = _
  have e1 : Cert.KernelIdeal.Hand3.cellAt (ix2 r n) k = ix2 r k := funext fun a => Fin.ext (by
    match a with
    | ⟨0, _⟩ => rfl
    | ⟨1, _⟩ => rfl)
  have e2 : idx_main_v94 (idx_main_v95 (ix2 r k)) = ix1 k := funext fun a => Fin.ext (by
    match a with
    | ⟨0, _⟩ => rfl)
  rw [e1, e2]

/-! ## The whole reference -/

/-- The reference's result is the six functions composed, on the argument arrays. -/
theorem ref_eq (x0 : (⟨S100000x512, .f32⟩ : BufTy).Contents (Elt Ideal)) (x1 : (⟨S2x600000, .i32⟩ : BufTy).Contents (Elt Ideal)) (x2 : (⟨S100000x128, .f32⟩ : BufTy).Contents (Elt Ideal)) (x3 : (⟨S512x128, .f32⟩ : BufTy).Contents (Elt Ideal)) (x4 : (⟨S128, .f32⟩ : BufTy).Contents (Elt Ideal)) (x5 : (⟨S128x10, .f32⟩ : BufTy).Contents (Elt Ideal)) (x6 : (⟨S10, .f32⟩ : BufTy).Contents (Elt Ideal)) :
    val_main_v107 (F := Ideal) x0 x1 x2 x3 x4 x5 x6
      = Cert.KernelIdeal.Hand3.G (Cert.KernelIdeal.HandHost.agg10 (Cert.KernelIdeal.Hand2.G (Cert.KernelIdeal.Hand1.G (Cert.KernelIdeal.HandHost.agg128 (Cert.KernelIdeal.Hand0.G x0 x3)
            (val_main_v6 (F := Ideal) x1) (val_main_v7 (F := Ideal) x1) (val_main_v30 (F := Ideal) x1))
          (shapeCast Cert.KernelIdeal.S1x128 x4 Cert.KernelIdeal.Gen.shapeCasts_S128_S1x128) x2) x5)
          (val_main_v6 (F := Ideal) x1) (val_main_v7 (F := Ideal) x1) (val_main_v30 (F := Ideal) x1))
        (shapeCast Cert.KernelIdeal.S1x10 x6 Cert.KernelIdeal.Gen.shapeCasts_S10_S1x10) := by
  rw [soft_ref, agg10_ref, lin2_ref, act_ref, agg128_ref, lin1_ref]

end Cert.ReferenceIdeal.HandRef

end
-- ==== Proof.KValue.lean ====
/-
  The idealized kernel's result as ONE function of the argument arrays.
  The run's fold over its nine segments is read from the launch memory forward. The host operations before the first
  region leave the source and destination indices and the edge normalisations, functions of the edge list alone, and
  write no argument. Each region leaves in its output array the whole-array function of what it finds in its input
  arrays (the matrix product; the activation; the second product; the row softmax) and every other buffer as it was;
  each host stretch between regions leaves the graph aggregation of the product before it and the bias re-laid as a
  row, and every buffer it does not write as it was. Composed, the result buffer holds the softmax of the second
  aggregation … of the first product of the arguments: the composition the reference's stages regroup into.
-/
import proofs.«179368_j60370060312681_2_alg».proof.Proof.Gen.KernelIdeal.Frame
import proofs.«179368_j60370060312681_2_alg».proof.Proof.RefReadP
import proofs.«179368_j60370060312681_2_alg».proof.Proof.Region0
import proofs.«179368_j60370060312681_2_alg».proof.Proof.Region1
import proofs.«179368_j60370060312681_2_alg».proof.Proof.Region2
import proofs.«179368_j60370060312681_2_alg».proof.Proof.Region3
import proofs.«179368_j60370060312681_2_alg».proof.Proof.Host
import proofs.«179368_j60370060312681_2_alg».proof.Proof.Host0
import proofs.«179368_j60370060312681_2_alg».proof.Proof.RefStages

set_option maxRecDepth 16384

noncomputable section

open Idealize.ShloMosaic Idealize.ShloMosaic.TcCoe Idealize.SL.Sem
open Idealize.ShloMosaic.Pipeline (Dat)

namespace Cert.KernelIdeal.HandValue

open Cert.KernelIdeal Cert.KernelIdeal.Gen

variable (m : (ℓ : Loc nD τ sig) → Buf (Elt Ideal) ℓ) (ρ : Dev nD → PrngReg) (c : Dev nD)

/-! ## Before the first region -/

theorem W3_arg0 : W3 m ρ c (Proc.devRef .tc main_arg0) = m ((c : Thread nD τ).loc main_arg0) := HandHost0.host0_arg0 (W0 m ρ c)
theorem W3_arg2 : W3 m ρ c (Proc.devRef .tc main_arg2) = m ((c : Thread nD τ).loc main_arg2) := HandHost0.host0_arg2 (W0 m ρ c)
theorem W3_arg3 : W3 m ρ c (Proc.devRef .tc main_arg3) = m ((c : Thread nD τ).loc main_arg3) := HandHost0.host0_arg3 (W0 m ρ c)
theorem W3_arg4 : W3 m ρ c (Proc.devRef .tc main_arg4) = m ((c : Thread nD τ).loc main_arg4) := HandHost0.host0_arg4 (W0 m ρ c)
theorem W3_arg5 : W3 m ρ c (Proc.devRef .tc main_arg5) = m ((c : Thread nD τ).loc main_arg5) := HandHost0.host0_arg5 (W0 m ρ c)
theorem W3_arg6 : W3 m ρ c (Proc.devRef .tc main_arg6) = m ((c : Thread nD τ).loc main_arg6) := HandHost0.host0_arg6 (W0 m ρ c)
theorem W3_v5 : W3 m ρ c (Proc.devRef .tc main_v5) = Cert.ReferenceIdeal.ReadP.val_main_v6 (F := Ideal) (m ((c : Thread nD τ).loc main_arg1)) := HandHost0.host0_v5 (W0 m ρ c)
theorem W3_v6 : W3 m ρ c (Proc.devRef .tc main_v6) = Cert.ReferenceIdeal.ReadP.val_main_v7 (F := Ideal) (m ((c : Thread nD τ).loc main_arg1)) := HandHost0.host0_v6 (W0 m ρ c)
theorem W3_v29 : W3 m ρ c (Proc.devRef .tc main_v29) = Cert.ReferenceIdeal.ReadP.val_main_v30 (F := Ideal) (m ((c : Thread nD τ).loc main_arg1)) := HandHost0.host0_v29 (W0 m ρ c)

/-! ## After the first region: the product x · W1 -/

theorem W4_v30 : W4 m ρ c (Proc.devRef .tc main_v30) = Hand0.G (m ((c : Thread nD τ).loc main_arg0)) (m ((c : Thread nD τ).loc main_arg3)) := by
  refine (W4_arr m ρ c 2).trans ((Hand0.final (V3 m ρ) c).trans ?_)
  show Hand0.G (W3 m ρ c (Proc.devRef .tc main_arg0)) (W3 m ρ c (Proc.devRef .tc main_arg3)) = _
  rw [W3_arg0, W3_arg3]

theorem W4_arg2 : W4 m ρ c (Proc.devRef .tc main_arg2) = m ((c : Thread nD τ).loc main_arg2) := (W4_of_ne m ρ c main_arg2 (by decide)).trans (W3_arg2 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)
theorem W4_arg6 : W4 m ρ c (Proc.devRef .tc main_arg6) = m ((c : Thread nD τ).loc main_arg6) := (W4_of_ne m ρ c main_arg6 (by decide)).trans (W3_arg6 m ρ c)
theorem W4_v5 : W4 m ρ c (Proc.devRef .tc main_v5) = Cert.ReferenceIdeal.ReadP.val_main_v6 (F := Ideal) (m ((c : Thread nD τ).loc main_arg1)) := (W4_of_ne m ρ c main_v5 (by decide)).trans (W3_v5 m ρ c)
theorem W4_v6 : W4 m ρ c (Proc.devRef .tc main_v6) = Cert.ReferenceIdeal.ReadP.val_main_v7 (F := Ideal) (m ((c : Thread nD τ).loc main_arg1)) := (W4_of_ne m ρ c main_v6 (by decide)).trans (W3_v6 m ρ c)
theorem W4_v29 : W4 m ρ c (Proc.devRef .tc main_v29) = Cert.ReferenceIdeal.ReadP.val_main_v30 (F := Ideal) (m ((c : Thread nD τ).loc main_arg1)) := (W4_of_ne m ρ c main_v29 (by decide)).trans (W3_v29 m ρ c)

/-! ## Before the second region: the aggregation and the bias row -/

theorem W5_v43 : W5 m ρ c (Proc.devRef .tc main_v43) = HandHost.agg128 (Hand0.G (m ((c : Thread nD τ).loc main_arg0)) (m ((c : Thread nD τ).loc main_arg3))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v30 (F := Ideal) (m ((c : Thread nD τ).loc main_arg1))) := by
  refine (HandHost.host1_v43 (W4 m ρ c)).trans ?_
  rw [W4_v30, W4_v5, W4_v6, W4_v29]
theorem W5_v44 : W5 m ρ c (Proc.devRef .tc main_v44) = shapeCast S1x128 (m ((c : Thread nD τ).loc main_arg4)) shapeCasts_S128_S1x128 := by
  refine (HandHost.host1_v44 (W4 m ρ c)).trans ?_
  rw [W4_arg4]
theorem W5_arg2 : W5 m ρ c (Proc.devRef .tc main_arg2) = m ((c : Thread nD τ).loc main_arg2) := (HandHost.host1_arg2 (W4 m ρ c)).trans (W4_arg2 m ρ c)
theorem W5_arg5 : W5 m ρ c (Proc.devRef .tc main_arg5) = m ((c : Thread nD τ).loc main_arg5) := (HandHost.host1_arg5 (W4 m ρ c)).trans (W4_arg5 m ρ c)
theorem W5_arg6 : W5 m ρ c (Proc.devRef .tc main_arg6) = m ((c : Thread nD τ).loc main_arg6) := (HandHost.host1_arg6 (W4 m ρ c)).trans (W4_arg6 m ρ c)
theorem W5_v5 : W5 m ρ c (Proc.devRef .tc main_v5) = Cert.ReferenceIdeal.ReadP.val_main_v6 (F := Ideal) (m ((c : Thread nD τ).loc main_arg1)) := (HandHost.host1_v5 (W4 m ρ c)).trans (W4_v5 m ρ c)
theorem W5_v6 : W5 m ρ c (Proc.devRef .tc main_v6) = Cert.ReferenceIdeal.ReadP.val_main_v7 (F := Ideal) (m ((c : Thread nD τ).loc main_arg1)) := (HandHost.host1_v6 (W4 m ρ c)).trans (W4_v6 m ρ c)
theorem W5_v29 : W5 m ρ c (Proc.devRef .tc main_v29) = Cert.ReferenceIdeal.ReadP.val_main_v30 (F := Ideal) (m ((c : Thread nD τ).loc main_arg1)) := (HandHost.host1_v29 (W4 m ρ c)).trans (W4_v29 m ρ c)

/-! ## After the second region: the first layer's activation -/

/-- The first layer's activation of the arguments. -/
abbrev hidden : FVec Ideal S100000x128 .f32 :=
  Hand1.G (HandHost.agg128 (Hand0.G (m ((c : Thread nD τ).loc main_arg0)) (m ((c : Thread nD τ).loc main_arg3))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v30 (F := Ideal) (m ((c : Thread nD τ).loc main_arg1))))
    (shapeCast S1x128 (m ((c : Thread nD τ).loc main_arg4)) shapeCasts_S128_S1x128) (m ((c : Thread nD τ).loc main_arg2))

theorem W6_v45 : W6 m ρ c (Proc.devRef .tc main_v45) = hidden m c := by
  refine (W6_arr m ρ c 3).trans ((Hand1.final (V5 m ρ) c).trans ?_)
  show Hand1.G (W5 m ρ c (Proc.devRef .tc main_v43)) (W5 m ρ c (Proc.devRef .tc main_v44)) (W5 m ρ c (Proc.devRef .tc main_arg2)) = _
  rw [W5_v43, W5_v44, W5_arg2]
theorem W6_arg5 : W6 m ρ c (Proc.devRef .tc main_arg5) = m ((c : Thread nD τ).loc main_arg5) := (W6_of_ne m ρ c main_arg5 (by decide)).trans (W5_arg5 m ρ c)
theorem W6_arg6 : W6 m ρ c (Proc.devRef .tc main_arg6) = m ((c : Thread nD τ).loc main_arg6) := (W6_of_ne m ρ c main_arg6 (by decide)).trans (W5_arg6 m ρ c)
theorem W6_v5 : W6 m ρ c (Proc.devRef .tc main_v5) = Cert.ReferenceIdeal.ReadP.val_main_v6 (F := Ideal) (m ((c : Thread nD τ).loc main_arg1)) := (W6_of_ne m ρ c main_v5 (by decide)).trans (W5_v5 m ρ c)
theorem W6_v6 : W6 m ρ c (Proc.devRef .tc main_v6) = Cert.ReferenceIdeal.ReadP.val_main_v7 (F := Ideal) (m ((c : Thread nD τ).loc main_arg1)) := (W6_of_ne m ρ c main_v6 (by decide)).trans (W5_v6 m ρ c)
theorem W6_v29 : W6 m ρ c (Proc.devRef .tc main_v29) = Cert.ReferenceIdeal.ReadP.val_main_v30 (F := Ideal) (m ((c : Thread nD τ).loc main_arg1)) := (W6_of_ne m ρ c main_v29 (by decide)).trans (W5_v29 m ρ c)

/-! ## After the third region: the product h · W2 -/

theorem W7_v46 : W7 m ρ c (Proc.devRef .tc main_v46) = Hand2.G (hidden m c) (m ((c : Thread nD τ).loc main_arg5)) := by
  refine (W7_arr m ρ c 2).trans ((Hand2.final (V6 m ρ) c).trans ?_)
  show Hand2.G (W6 m ρ c (Proc.devRef .tc main_v45)) (W6 m ρ c (Proc.devRef .tc main_arg5)) = _
  rw [W6_v45, W6_arg5]
theorem W7_arg6 : W7 m ρ c (Proc.devRef .tc main_arg6) = m ((c : Thread nD τ).loc main_arg6) := (W7_of_ne m ρ c main_arg6 (by decide)).trans (W6_arg6 m ρ c)
theorem W7_v5 : W7 m ρ c (Proc.devRef .tc main_v5) = Cert.ReferenceIdeal.ReadP.val_main_v6 (F := Ideal) (m ((c : Thread nD τ).loc main_arg1)) := (W7_of_ne m ρ c main_v5 (by decide)).trans (W6_v5 m ρ c)
theorem W7_v6 : W7 m ρ c (Proc.devRef .tc main_v6) = Cert.ReferenceIdeal.ReadP.val_main_v7 (F := Ideal) (m ((c : Thread nD τ).loc main_arg1)) := (W7_of_ne m ρ c main_v6 (by decide)).trans (W6_v6 m ρ c)
theorem W7_v29 : W7 m ρ c (Proc.devRef .tc main_v29) = Cert.ReferenceIdeal.ReadP.val_main_v30 (F := Ideal) (m ((c : Thread nD τ).loc main_arg1)) := (W7_of_ne m ρ c main_v29 (by decide)).trans (W6_v29 m ρ c)

/-! ## Before the fourth region: the second aggregation and the bias row -/

theorem W8_v59 : W8 m ρ c (Proc.devRef .tc main_v59) = HandHost.agg10 (Hand2.G (hidden m c) (m ((c : Thread nD τ).loc main_arg5))) (Cert.ReferenceIdeal.ReadP.val_main_v6 (F := Ideal) (m ((c : Thread nD τ).loc main_arg1))) (Cert.ReferenceIdeal.ReadP.val_main_v7 (F := Ideal) (m ((c : Thread nD τ).loc main_arg1))) (Cert.ReferenceIdeal.ReadP.val_main_v30 (F := Ideal) (m ((c : Thread nD τ).loc main_arg1))) := by
  refine (HandHost.host3_v59 (W7 m ρ c)).trans ?_
  rw [W7_v46, W7_v5, W7_v6, W7_v29]
theorem W8_v60 : W8 m ρ c (Proc.devRef .tc main_v60) = shapeCast S1x10 (m ((c : Thread nD τ).loc main_arg6)) shapeCasts_S10_S1x10 := by
  refine (HandHost.host3_v60 (W7 m ρ c)).trans ?_
  rw [W7_arg6]

/-! ## After the fourth region: the result -/

/-- THE RESULT BUFFER after the run holds the reference's last stage of the argument arrays. -/
theorem result_eq : W9 m ρ c (Proc.devRef .tc main_v61)
    = Cert.ReferenceIdeal.ReadP.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.ReferenceIdeal.HandRef.ref_eq]
  refine (W9_arr m ρ c 2).trans ((Hand3.final (V8 m ρ) c).trans ?_)
  show Hand3.G (W8 m ρ c (Proc.devRef .tc main_v59)) (W8 m ρ c (Proc.devRef .tc main_v60)) = _
  rw [W8_v59, W8_v60]

end Cert.KernelIdeal.HandValue

end
-- ==== Proof.lean ====
/- The proof of `Cert.Claim`: the kernel's program — two graph-convolution layers as four TensorCore regions (two matrix
   products, the bias-relu-dropout activation, the bias-softmax) among host stretches (the edge normalisations and the two
   graph aggregations) — against the reference, which computes the same layers on the host.
   The three frames: the two kernel programs' by the frame of the run over its nine segments; the reference's by its run.
   The idealization's one entry: the scale constant 0x3F8E38E4 is named 8388608 / 7549747, the reciprocal of the value
   7549747 / 8388608 of the reference's divisor 0x3F666666.
   The value claim, at the ideal values: the kernel's result buffer ends at the fold of the nine segments, which is the
   composition of six whole-array functions of the argument arrays (Proof/KValue.lean: each region block by block into one
   function — Proof/Region0 … Region3.lean — each host stretch as its operations' composition — Proof/Host0.lean, Host.lean);
   the reference's stages regroup into the same six functions (Proof/RefStages.lean), the activation meeting the kernel's by
   x / d = x · (1 / d) on the extended reals and the softmax by max (−∞) x = x. -/
import proofs.«179368_j60370060312681_2_alg».proof.Defs
import proofs.«179368_j60370060312681_2_alg».proof.Proof.Gen.Kernel
import proofs.«179368_j60370060312681_2_alg».proof.Proof.Gen.Kernel.Frame
import proofs.«179368_j60370060312681_2_alg».proof.Proof.Gen.KernelIdeal
import proofs.«179368_j60370060312681_2_alg».proof.Proof.Gen.KernelIdeal.Frame
import proofs.«179368_j60370060312681_2_alg».proof.Proof.Gen.ReferenceIdeal
import proofs.«179368_j60370060312681_2_alg».proof.Proof.Gen.Pre_finite_inputs
import proofs.«179368_j60370060312681_2_alg».proof.Proof.RefReadP
import proofs.«179368_j60370060312681_2_alg».proof.Proof.KRun
import proofs.«179368_j60370060312681_2_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: the table gives the scale constant's name the value 8388608 / 7549747. -/
theorem preserves : Cert.preserves_Kernel_KernelIdeal :=
  IdealRules.named_const.statement Cert.KernelIdeal.κ "keep_scale" .f32 0x3F8E38E4#32 ((8388608 / 7549747 : ℝ) : EReal) rfl

/-- At the ideal values the kernel's result buffer ends at the fold of its segments and the reference's at its last
    stage of arguments that agree: one function of the argument arrays. -/
theorem algebraic : Cert.algebraic_KernelIdeal_ReferenceIdeal := by
  intro m ρ m' ρ' _ hagree
  refine ⟨fun c => Cert.KernelIdeal.Gen.W9 m ρ c (Proc.devRef .tc Cert.KernelIdeal.main_v61), Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v107_eq, (hagree c).1, (hagree c).2.1, (hagree c).2.2.1, (hagree c).2.2.2.1, (hagree c).2.2.2.2.1,
    (hagree c).2.2.2.2.2.1, (hagree c).2.2.2.2.2.2]
  exact (Cert.KernelIdeal.HandValue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
